-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S4x2048x2048 : Shape := ⟨3, ![4, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S2048x1024 : Shape := ⟨2, ![2048, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩
abbrev S4x1024x2048 : Shape := ⟨3, ![4, 1024, 2048]⟩

abbrev nBuf : Space → Nat
  | .hbm => 32
  | .vmem => 28
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8192x1024, .f32⟩
  | .hbm, ⟨10, _⟩ => ⟨S1024x1024, .f32⟩
  | .hbm, ⟨11, _⟩ => ⟨S1024x1024, .bf16⟩
  | .hbm, ⟨12, _⟩ => ⟨S1x1024, .f32⟩
  | .hbm, ⟨13, _⟩ => ⟨S8192x1024, .bf16⟩
  | .hbm, ⟨14, _⟩ => ⟨S4x2048x1024, .bf16⟩
  | .hbm, ⟨15, _⟩ => ⟨S8192x1024, .f32⟩
  | .hbm, ⟨16, _⟩ => ⟨S1024x1024, .f32⟩
  | .hbm, ⟨17, _⟩ => ⟨S1024x1024, .bf16⟩
  | .hbm, ⟨18, _⟩ => ⟨S1x1024, .f32⟩
  | .hbm, ⟨19, _⟩ => ⟨S8192x1024, .bf16⟩
  | .hbm, ⟨20, _⟩ => ⟨S4x2048x1024, .bf16⟩
  | .hbm, ⟨21, _⟩ => ⟨S4x2048x1024, .bf16⟩
  | .hbm, ⟨22, _⟩ => ⟨S4x2048x1024, .f32⟩
  | .hbm, ⟨23, _⟩ => ⟨S4x2048x2048, .f32⟩
  | .hbm, ⟨24, _⟩ => ⟨S4x1024x2048, .f32⟩
  | .hbm, ⟨25, _⟩ => ⟨S4x2048x1024, .f32⟩
  | .hbm, ⟨26, _⟩ => ⟨S8192x1024, .f32⟩
  | .hbm, ⟨27, _⟩ => ⟨S1024x1024, .f32⟩
  | .hbm, ⟨28, _⟩ => ⟨S1024x1024, .bf16⟩
  | .hbm, ⟨29, _⟩ => ⟨S1x1024, .f32⟩
  | .hbm, ⟨30, _⟩ => ⟨S8192x1024, .f32⟩
  | .hbm, ⟨31, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x256x1024, .f32⟩
  | .local _ .vmem, ⟨19, _⟩ => ⟨S1x256x1024, .f32⟩
  | .local _ .vmem, ⟨20, _⟩ => ⟨S1x256x2048, .f32⟩
  | .local _ .vmem, ⟨21, _⟩ => ⟨S1x256x2048, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .bf16⟩
  | .local _ .vmem, ⟨25, _⟩ => ⟨S1x1024, .f32⟩
  | .local _ .vmem, ⟨26, _⟩ => ⟨S1024x1024, .f32⟩
  | .local _ .vmem, ⟨27, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x2048x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x256x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S4x2048x1024_S8192x1024 : S4x2048x1024.ShapeCasts S8192x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x1024_S4x2048x1024 : S8192x1024.ShapeCasts S4x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  transposes_S2048x1024_p1_0_S1024x2048 : S2048x1024.Transposes [1, 0] S1024x2048
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x1024_S1x256x1024 : S256x1024.ShapeCasts S1x256x1024
  transposes_S4x2048x1024_S4x1024x2048_0_2_1 : S4x2048x1024.Transposes [0, 2, 1] S4x1024x2048
  shapeCasts_S4x1024x2048_S4x2048x1024 : S4x1024x2048.ShapeCasts S4x2048x1024
  dot_S1024x1024_S1024x1024_S1024x1024_1_0_0_1_n_n_wf : DotDims.WF S1024x1024 S1024x1024 S1024x1024 [1] [0] [0] [1] [] []
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .bf16 = 32 ∨ (Rect.block (s := S8192x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x1024.size a ≤ S4x2048x1024.size a
  hwx2_0 : ∀ i : grid2.Coords, EltTy.bits .bf16 = 32 ∨ (Rect.block (s := S4x2048x1024) S1x256x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x1024.size a ≤ S4x2048x1024.size a
  hwx2_1 : ∀ i : grid2.Coords, EltTy.bits .bf16 = 32 ∨ (Rect.block (s := S4x2048x1024) S1x2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048x1024.size a ≤ S4x2048x1024.size a
  hwx2_2 : ∀ i : grid2.Coords, EltTy.bits .bf16 = 32 ∨ (Rect.block (s := S4x2048x1024) S1x2048x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x256x1024.size a ≤ S4x2048x1024.size a
  hwx2_3 : ∀ i : grid2.Coords, EltTy.bits .f32 = 32 ∨ (Rect.block (s := S4x2048x1024) S1x256x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x256x2048.size a ≤ S4x2048x2048.size a
  hwx2_4 : ∀ i : grid2.Coords, EltTy.bits .f32 = 32 ∨ (Rect.block (s := S4x2048x2048) S1x256x2048.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x1024.size a
  hwx3_0 : ∀ i : grid3.Coords, EltTy.bits .f32 = 32 ∨ (Rect.block (s := S8192x1024) S1024x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x1024.size a
  hwx3_1 : ∀ i : grid3.Coords, EltTy.bits .bf16 = 32 ∨ (Rect.block (s := S1024x1024) S1024x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S8192x1024.size a
  hwx3_3 : ∀ i : grid3.Coords, EltTy.bits .f32 = 32 ∨ (Rect.block (s := S8192x1024) S1024x1024.size (cc3_transform_3 i) (hinb3_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S1x256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1x2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x2048x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13_0) S1x256x1024.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v13_1) S1x256x2048.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v16) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S1024x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v19) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v20) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S4x1024x2048 : Shape := ⟨3, ![4, 1024, 2048]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x2048, .f32⟩
  | .hbm, ⟨18, _⟩ => ⟨S_, .f32⟩
  | .hbm, ⟨19, _⟩ => ⟨S_, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048, .f32⟩
  | .hbm, ⟨24, _⟩ => ⟨S_, .f32⟩
  | .hbm, ⟨25, _⟩ => ⟨S4x2048, .f32⟩
  | .hbm, ⟨26, _⟩ => ⟨S4x2048, .f32⟩
  | .hbm, ⟨27, _⟩ => ⟨S4x2048x1, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S_, .f32⟩
  | .hbm, ⟨32, _⟩ => ⟨S4x2048, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S4x2048x1024, .f32⟩
  | .hbm, ⟨37, _⟩ => ⟨S4x1024x2048, .f32⟩
  | .hbm, ⟨38, _⟩ => ⟨S4x2048x1024, .f32⟩
  | .hbm, ⟨39, _⟩ => ⟨S4x2048x1024, .f32⟩
  | .hbm, ⟨40, _⟩ => ⟨S1x1x1024, .f32⟩
  | .hbm, ⟨41, _⟩ => ⟨S4x2048x1024, .f32⟩
  | .hbm, ⟨42, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  transposes_S4x2048x1024_S4x1024x2048_0_2_1 : S4x2048x1024.Transposes [0, 2, 1] S4x1024x2048
  shapeCasts_S4x1024x2048_S4x2048x1024 : S4x1024x2048.ShapeCasts S4x2048x1024
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KernelRun.lean ====
/-
  The run of the idealized kernel program with EVERY buffer's final contents named.

  The program is nine segments: five stretches of host operations and four kernel regions between them.
  The buffer contents at each segment boundary form a fold from the launch memory: a host stretch applies its
  operations, a region replaces each of its output arrays by what its write-backs leave and keeps every other
  buffer. The last boundary is `Gen.W9`. Every weakly fair execution terminates, nothing faults, and each buffer
  that is not scoped to a region ends at its value in that last boundary — in particular the two result buffers.
-/
import proofs.«157808_j62268435858121_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every unscoped buffer of every
    core ends at its contents in the last boundary of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) := by
  refine Pipeline.θ_run_regions_kit (pcfgs (F := F)) adm (pdats m ρ) () cellOf_inj emb₁ defs₀ 𝒱₀ L lv m ρ main (segs m ρ)
    (fun c Q => by rw [main_run m ρ c]) ?hnd (O₀ := 0) (hL := fun _ _ => rfl) (G := fun _ => iprop(emp))
    (u₀ := initOf (Pipeline.cells cfgs cellOf_inj) (Pipeline.launchToks cfgs cellOf_inj)) (hu₀ := ?hu)
    (T₀ := fun c => iprop(StableHlo.held (c : Thread nD τ) (Pipeline.ucRefs τ sig) (W0 m ρ c) ∗ R c)) (Tₙ := Tₙ m ρ)
    (hch := ?hch) (hinit := ?hinit)
    (QY := fun c s => ∀ b ∈ Pipeline.ucRefs τ sig, s.mem (((c : Thread nD τ)).1, b) = W9 m ρ c b)
    (hfin := ?hfin) (hQ := fun s h => h)
  case hnd =>
    -- the four regions enter the four pipelines 0, 1, 2, 3, once each
    simp only [segs, Pipeline.Seg.pipes_host, Pipeline.Seg.pipes_region, Pipeline.Seg.pipes_nil]
    decide
  case hu =>
    -- the launch resource is the pipelines' own initial element; the per-core ghost part is empty
    iintro Hu
    imodintro
    isplitl [Hu]
    · -- the same element, read through the embedding of the pipelines' resource into the program's
      iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by
        rw [BI.bigSep_emp_const])
      iempintro
  case hch =>
    -- each segment's exit state is literally the next one's entry state; the last host stretch's exit state is
    -- the final thread state with the "nothing owed" part set beside it
    refine ⟨fun _ => .rfl, fun _ => .rfl, fun _ => .rfl, fun _ => .rfl, fun _ => .rfl, fun _ => .rfl, fun _ => .rfl,
      fun _ => .rfl, fun _ => .rfl, fun c => ?_⟩
    dsimp only [Pipeline.Seg.post, hseg, Pipeline.HostSeg.ofOps]
    iintro ⟨Hh, Hp, HO⟩
    isplitl [Hh Hp]
    · isplitl [Hh]
      · iexact Hh
      · iexact Hp
    · iexact HO
  case hinit =>
    -- core by core: the launch deals the unscoped buffers at the launch memory, the generator register and an empty
    -- debt; that is the first thread state
    refine Pipeline.initEach L lv fun c => ?_
    rw [show unscopedBufs c (fun b => m ((c : Thread nD τ).loc b))
        = StableHlo.held (c : Thread nD τ) (Pipeline.ucRefs τ sig) (W0 m ρ c) from Pipeline.unscopedBufs_held c (W0 m ρ c)]
    iintro ⟨⟨Hh, -, HO, -, Hp, -⟩, -⟩
    imodintro
    isplitl [Hh]
    · iexact Hh
    isplitl [Hp]
    · iexists _
      iexact Hp
    · iexists ∅
      iexact HO
  case hfin =>
    intro c s'
    iintro ⟨⟨Hh, -⟩, HSI⟩
    unfold StableHlo.held
    imodintro
    -- holding every unscoped buffer at its last-boundary contents beside the state's interpretation, the state's
    -- memory has those contents
    iapply (pointsTo_read_all (Pipeline.ucRefs τ sig) (fun b => (((c : Thread nD τ)).1, b)) (W9 m ρ c) s')
    isplitl [Hh]
    · iexact Hh
    · iexact HSI

end Cert.KernelIdeal.Run

end
-- ==== Proof.Boundaries.lean ====
/-
  The buffer contents at the segment boundaries of the idealized kernel program, one buffer at a time.

  Between the launch and the return the program alternates stretches of host operations with four kernel regions.
  A host stretch writes its own result buffers (a reshape, a transpose of a weight matrix, a change of float format)
  and leaves every other buffer; a region replaces its output arrays by what its write-backs leave and keeps every
  other buffer. Reading the fold at the buffers the regions consume gives each region's inputs in terms of the
  previous region's outputs and of the arguments.
-/
import proofs.«157808_j62268435858121_2_alg».proof.Proof.Gen.KernelIdeal.Frame
import Idealize.ShloMosaic.Lib.StableHlo.Run

set_option maxRecDepth 16384

noncomputable section

namespace Cert.KernelIdeal.Bdry

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## Entering region 0: the first stretch reshapes the query input to rows, transposes the first weight and
    writes the first bias as a row; the other arguments are untouched -/

theorem W1_v0 (c : Dev nD) : W1 m ρ c (Proc.devRef .tc main_v0)
    = shapeCast S8192x1024 (m ((c : Thread nD τ).loc main_arg0)) shapeCasts_S4x2048x1024_S8192x1024 := by
  show StableHlo.after hostOps0 (W0 m ρ c) (Proc.devRef .tc main_v0) = _
  after_results
  all_goals (try rfl)

theorem W1_v2 (c : Dev nD) : W1 m ρ c (Proc.devRef .tc main_v2)
    = truncf .bf16 (transpose S1024x1024 [1, 0] (m ((c : Thread nD τ).loc main_arg3)) transposes_S1024x1024_S1024x1024_1_0) bitsLt_bf16_f32 := by
  show StableHlo.after hostOps0 (W0 m ρ c) (Proc.devRef .tc main_v2) = _
  after_results
  all_goals (try rfl)

theorem W1_v3 (c : Dev nD) : W1 m ρ c (Proc.devRef .tc main_v3)
    = shapeCast S1x1024 (m ((c : Thread nD τ).loc main_arg4)) shapeCasts_S1024_S1x1024 := by
  show StableHlo.after hostOps0 (W0 m ρ c) (Proc.devRef .tc main_v3) = _
  after_results
  all_goals (try rfl)

theorem W1_arg1 (c : Dev nD) : W1 m ρ c (Proc.devRef .tc main_arg1)
    = m ((c : Thread nD τ).loc main_arg1) := by
  show StableHlo.after hostOps0 (W0 m ρ c) (Proc.devRef .tc main_arg1) = _
  after_results
  all_goals (try rfl)

theorem W1_arg2 (c : Dev nD) : W1 m ρ c (Proc.devRef .tc main_arg2)
    = m ((c : Thread nD τ).loc main_arg2) := by
  show StableHlo.after hostOps0 (W0 m ρ c) (Proc.devRef .tc main_arg2) = _
  after_results
  all_goals (try rfl)

theorem W1_arg5 (c : Dev nD) : W1 m ρ c (Proc.devRef .tc main_arg5)
    = m ((c : Thread nD τ).loc main_arg5) := by
  show StableHlo.after hostOps0 (W0 m ρ c) (Proc.devRef .tc main_arg5) = _
  after_results
  all_goals (try rfl)

theorem W1_arg6 (c : Dev nD) : W1 m ρ c (Proc.devRef .tc main_arg6)
    = m ((c : Thread nD τ).loc main_arg6) := by
  show StableHlo.after hostOps0 (W0 m ρ c) (Proc.devRef .tc main_arg6) = _
  after_results
  all_goals (try rfl)

theorem W1_arg7 (c : Dev nD) : W1 m ρ c (Proc.devRef .tc main_arg7)
    = m ((c : Thread nD τ).loc main_arg7) := by
  show StableHlo.after hostOps0 (W0 m ρ c) (Proc.devRef .tc main_arg7) = _
  after_results
  all_goals (try rfl)

theorem W1_arg8 (c : Dev nD) : W1 m ρ c (Proc.devRef .tc main_arg8)
    = m ((c : Thread nD τ).loc main_arg8) := by
  show StableHlo.after hostOps0 (W0 m ρ c) (Proc.devRef .tc main_arg8) = _
  after_results
  all_goals (try rfl)

/-! ## Leaving region 0: its output array is what its write-backs leave; the arguments are untouched -/

theorem W2_v4 (c : Dev nD) : W2 m ρ c (Proc.devRef .tc main_v4) = (dat0 (V1 m ρ) c).arrAt 3 cfg0.N := W2_arr m ρ c 3

theorem W2_arg1 (c : Dev nD) : W2 m ρ c (Proc.devRef .tc main_arg1) = m ((c : Thread nD τ).loc main_arg1) :=
  (W2_of_ne m ρ c main_arg1 (by decide)).trans (W1_arg1 m ρ c)

theorem W2_arg2 (c : Dev nD) : W2 m ρ c (Proc.devRef .tc main_arg2) = m ((c : Thread nD τ).loc main_arg2) :=
  (W2_of_ne m ρ c main_arg2 (by decide)).trans (W1_arg2 m ρ c)

theorem W2_arg5 (c : Dev nD) : W2 m ρ c (Proc.devRef .tc main_arg5) = m ((c : Thread nD τ).loc main_arg5) :=
  (W2_of_ne m ρ c main_arg5 (by decide)).trans (W1_arg5 m ρ c)

theorem W2_arg6 (c : Dev nD) : W2 m ρ c (Proc.devRef .tc main_arg6) = m ((c : Thread nD τ).loc main_arg6) :=
  (W2_of_ne m ρ c main_arg6 (by decide)).trans (W1_arg6 m ρ c)

theorem W2_arg7 (c : Dev nD) : W2 m ρ c (Proc.devRef .tc main_arg7) = m ((c : Thread nD τ).loc main_arg7) :=
  (W2_of_ne m ρ c main_arg7 (by decide)).trans (W1_arg7 m ρ c)

theorem W2_arg8 (c : Dev nD) : W2 m ρ c (Proc.devRef .tc main_arg8) = m ((c : Thread nD τ).loc main_arg8) :=
  (W2_of_ne m ρ c main_arg8 (by decide)).trans (W1_arg8 m ρ c)

/-! ## Entering region 1: the projected queries are reshaped back to [batch, position, feature]; the key input,
    the second weight and the second bias are prepared as the first ones were -/

theorem W3_v5 (c : Dev nD) : W3 m ρ c (Proc.devRef .tc main_v5)
    = shapeCast S4x2048x1024 (W2 m ρ c (Proc.devRef .tc main_v4)) shapeCasts_S8192x1024_S4x2048x1024 := by
  show StableHlo.after hostOps1 (W2 m ρ c) (Proc.devRef .tc main_v5) = _
  after_results
  all_goals (try rfl)

theorem W3_v6 (c : Dev nD) : W3 m ρ c (Proc.devRef .tc main_v6)
    = shapeCast S8192x1024 (m ((c : Thread nD τ).loc main_arg1)) shapeCasts_S4x2048x1024_S8192x1024 := by
  show StableHlo.after hostOps1 (W2 m ρ c) (Proc.devRef .tc main_v6) = _
  after_results
  all_goals (try rw [W2_arg1 m ρ c])
  all_goals (try rfl)

theorem W3_v8 (c : Dev nD) : W3 m ρ c (Proc.devRef .tc main_v8)
    = truncf .bf16 (transpose S1024x1024 [1, 0] (m ((c : Thread nD τ).loc main_arg5)) transposes_S1024x1024_S1024x1024_1_0) bitsLt_bf16_f32 := by
  show StableHlo.after hostOps1 (W2 m ρ c) (Proc.devRef .tc main_v8) = _
  after_results
  all_goals (try rw [W2_arg5 m ρ c])
  all_goals (try rfl)

theorem W3_v9 (c : Dev nD) : W3 m ρ c (Proc.devRef .tc main_v9)
    = shapeCast S1x1024 (m ((c : Thread nD τ).loc main_arg6)) shapeCasts_S1024_S1x1024 := by
  show StableHlo.after hostOps1 (W2 m ρ c) (Proc.devRef .tc main_v9) = _
  after_results
  all_goals (try rw [W2_arg6 m ρ c])
  all_goals (try rfl)

theorem W3_arg2 (c : Dev nD) : W3 m ρ c (Proc.devRef .tc main_arg2)
    = m ((c : Thread nD τ).loc main_arg2) := by
  show StableHlo.after hostOps1 (W2 m ρ c) (Proc.devRef .tc main_arg2) = _
  after_results
  all_goals (try rw [W2_arg2 m ρ c])
  all_goals (try rfl)

theorem W3_arg7 (c : Dev nD) : W3 m ρ c (Proc.devRef .tc main_arg7)
    = m ((c : Thread nD τ).loc main_arg7) := by
  show StableHlo.after hostOps1 (W2 m ρ c) (Proc.devRef .tc main_arg7) = _
  after_results
  all_goals (try rw [W2_arg7 m ρ c])
  all_goals (try rfl)

theorem W3_arg8 (c : Dev nD) : W3 m ρ c (Proc.devRef .tc main_arg8)
    = m ((c : Thread nD τ).loc main_arg8) := by
  show StableHlo.after hostOps1 (W2 m ρ c) (Proc.devRef .tc main_arg8) = _
  after_results
  all_goals (try rw [W2_arg8 m ρ c])
  all_goals (try rfl)

/-! ## Leaving region 1 -/

theorem W4_v10 (c : Dev nD) : W4 m ρ c (Proc.devRef .tc main_v10) = (dat1 (V3 m ρ) c).arrAt 3 cfg1.N := W4_arr m ρ c 3

theorem W4_v5 (c : Dev nD) : W4 m ρ c (Proc.devRef .tc main_v5) = W3 m ρ c (Proc.devRef .tc main_v5) := W4_of_ne m ρ c main_v5 (by decide)

theorem W4_arg2 (c : Dev nD) : W4 m ρ c (Proc.devRef .tc main_arg2) = m ((c : Thread nD τ).loc main_arg2) :=
  (W4_of_ne m ρ c main_arg2 (by decide)).trans (W3_arg2 m ρ c)

theorem W4_arg7 (c : Dev nD) : W4 m ρ c (Proc.devRef .tc main_arg7) = m ((c : Thread nD τ).loc main_arg7) :=
  (W4_of_ne m ρ c main_arg7 (by decide)).trans (W3_arg7 m ρ c)

theorem W4_arg8 (c : Dev nD) : W4 m ρ c (Proc.devRef .tc main_arg8) = m ((c : Thread nD τ).loc main_arg8) :=
  (W4_of_ne m ρ c main_arg8 (by decide)).trans (W3_arg8 m ρ c)

/-! ## Entering region 2: the projected keys are reshaped back, the value input changes float format only -/

theorem W5_v11 (c : Dev nD) : W5 m ρ c (Proc.devRef .tc main_v11)
    = shapeCast S4x2048x1024 (W4 m ρ c (Proc.devRef .tc main_v10)) shapeCasts_S8192x1024_S4x2048x1024 := by
  show StableHlo.after hostOps2 (W4 m ρ c) (Proc.devRef .tc main_v11) = _
  after_results
  all_goals (try rfl)

theorem W5_v12 (c : Dev nD) : W5 m ρ c (Proc.devRef .tc main_v12)
    = truncf .bf16 (m ((c : Thread nD τ).loc main_arg2)) bitsLt_bf16_f32 := by
  show StableHlo.after hostOps2 (W4 m ρ c) (Proc.devRef .tc main_v12) = _
  after_results
  all_goals (try rw [W4_arg2 m ρ c])
  all_goals (try rfl)

theorem W5_v5 (c : Dev nD) : W5 m ρ c (Proc.devRef .tc main_v5)
    = W4 m ρ c (Proc.devRef .tc main_v5) := by
  show StableHlo.after hostOps2 (W4 m ρ c) (Proc.devRef .tc main_v5) = _
  after_results
  all_goals (try rfl)

theorem W5_arg7 (c : Dev nD) : W5 m ρ c (Proc.devRef .tc main_arg7)
    = m ((c : Thread nD τ).loc main_arg7) := by
  show StableHlo.after hostOps2 (W4 m ρ c) (Proc.devRef .tc main_arg7) = _
  after_results
  all_goals (try rw [W4_arg7 m ρ c])
  all_goals (try rfl)

theorem W5_arg8 (c : Dev nD) : W5 m ρ c (Proc.devRef .tc main_arg8)
    = m ((c : Thread nD τ).loc main_arg8) := by
  show StableHlo.after hostOps2 (W4 m ρ c) (Proc.devRef .tc main_arg8) = _
  after_results
  all_goals (try rw [W4_arg8 m ρ c])
  all_goals (try rfl)

/-! ## Leaving region 2: the attention output and the attention weights -/

theorem W6_v13_0 (c : Dev nD) : W6 m ρ c (Proc.devRef .tc main_v13_0) = (dat2 (V5 m ρ) c).arrAt 3 cfg2.N := W6_arr m ρ c 3

theorem W6_v13_1 (c : Dev nD) : W6 m ρ c (Proc.devRef .tc main_v13_1) = (dat2 (V5 m ρ) c).arrAt 4 cfg2.N := W6_arr m ρ c 4

theorem W6_arg7 (c : Dev nD) : W6 m ρ c (Proc.devRef .tc main_arg7) = m ((c : Thread nD τ).loc main_arg7) :=
  (W6_of_ne m ρ c main_arg7 (by decide)).trans (W5_arg7 m ρ c)

theorem W6_arg8 (c : Dev nD) : W6 m ρ c (Proc.devRef .tc main_arg8) = m ((c : Thread nD τ).loc main_arg8) :=
  (W6_of_ne m ρ c main_arg8 (by decide)).trans (W5_arg8 m ρ c)

/-! ## Entering region 3: the attention output with its last two axes exchanged, read again as
    [batch, position, feature] and then as rows; the third weight and bias prepared as before -/

theorem W7_v16 (c : Dev nD) : W7 m ρ c (Proc.devRef .tc main_v16)
    = shapeCast S8192x1024 (shapeCast S4x2048x1024 (transpose S4x1024x2048 [0, 2, 1] (W6 m ρ c (Proc.devRef .tc main_v13_0)) transposes_S4x2048x1024_S4x1024x2048_0_2_1) shapeCasts_S4x1024x2048_S4x2048x1024) shapeCasts_S4x2048x1024_S8192x1024 := by
  show StableHlo.after hostOps3 (W6 m ρ c) (Proc.devRef .tc main_v16) = _
  after_results
  all_goals (try rfl)

theorem W7_v18 (c : Dev nD) : W7 m ρ c (Proc.devRef .tc main_v18)
    = truncf .bf16 (transpose S1024x1024 [1, 0] (m ((c : Thread nD τ).loc main_arg7)) transposes_S1024x1024_S1024x1024_1_0) bitsLt_bf16_f32 := by
  show StableHlo.after hostOps3 (W6 m ρ c) (Proc.devRef .tc main_v18) = _
  after_results
  all_goals (try rw [W6_arg7 m ρ c])
  all_goals (try rfl)

theorem W7_v19 (c : Dev nD) : W7 m ρ c (Proc.devRef .tc main_v19)
    = shapeCast S1x1024 (m ((c : Thread nD τ).loc main_arg8)) shapeCasts_S1024_S1x1024 := by
  show StableHlo.after hostOps3 (W6 m ρ c) (Proc.devRef .tc main_v19) = _
  after_results
  all_goals (try rw [W6_arg8 m ρ c])
  all_goals (try rfl)

theorem W7_v13_1 (c : Dev nD) : W7 m ρ c (Proc.devRef .tc main_v13_1)
    = W6 m ρ c (Proc.devRef .tc main_v13_1) := by
  show StableHlo.after hostOps3 (W6 m ρ c) (Proc.devRef .tc main_v13_1) = _
  after_results
  all_goals (try rfl)

/-! ## Leaving region 3, and the last reshape -/

theorem W8_v20 (c : Dev nD) : W8 m ρ c (Proc.devRef .tc main_v20) = (dat3 (V7 m ρ) c).arrAt 3 cfg3.N := W8_arr m ρ c 3

theorem W8_v13_1 (c : Dev nD) : W8 m ρ c (Proc.devRef .tc main_v13_1) = W7 m ρ c (Proc.devRef .tc main_v13_1) := W8_of_ne m ρ c main_v13_1 (by decide)

theorem W9_v21 (c : Dev nD) : W9 m ρ c (Proc.devRef .tc main_v21)
    = shapeCast S4x2048x1024 (W8 m ρ c (Proc.devRef .tc main_v20)) shapeCasts_S8192x1024_S4x2048x1024 := by
  show StableHlo.after hostOps4 (W8 m ρ c) (Proc.devRef .tc main_v21) = _
  after_results
  all_goals (try rfl)

theorem W9_v13_1 (c : Dev nD) : W9 m ρ c (Proc.devRef .tc main_v13_1)
    = W8 m ρ c (Proc.devRef .tc main_v13_1) := by
  show StableHlo.after hostOps4 (W8 m ρ c) (Proc.devRef .tc main_v13_1) = _
  after_results
  all_goals (try rfl)

end Cert.KernelIdeal.Bdry

end
-- ==== Proof.Linear0.lean ====
/- The first linear region: the output array after the region is x · Wt + b of the arrays the region
   finds, entry by entry, at the ideal values (extended reals, where the narrowing conversions are the identity and a
   block product into a zero accumulator is a plain sum).
   The grid has 8 points; point t reads rows 1024 t … 1024 t + 1023 of x, the whole transposed weight and the whole
   bias row, and writes rows 1024 t … 1024 t + 1023 of the output. Entry (r, q) of the block a point computes is
   Σ_k xblock(r, k) · Wt(k, q) + b(0, q): it depends on one row of x, one column of Wt and one entry of b. Row p of the
   output lies in the block of point p / 1024, at row p mod 1024, so the blocks tile the output and every entry (p, q)
   ends at Σ_k x(p, k) · Wt(k, q) + b(0, q).
   In order: the body at an entry (`pay_apply`), the whole-array function (`lin`, `G`), each input block as rows of
   its array (`xblk_apply`, `wblk_apply`, `bblk_apply`), what a point writes back (`tile_written_back`), the cover
   (`row_tiles_cover`), the array after the region (`out_eq`, `out_apply`). Stated for any contents `V` at region entry. -/
import proofs.«157808_j62268435858121_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Lin0

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block rectangle, as a constant function. -/
theorem zero_offsets : (![0, 0] : Fin 2 → Nat) = fun _ => 0 := funext fun a => by fin_cases a <;> rfl

/-- The left operand's index of the block product at output entry `i` and contraction index `k`: row of `i`. -/
theorem lhs_row (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

/-- The right operand's index: column of `i`. -/
theorem rhs_col (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A [1024,1024] × [1024,1024] block product into a zero accumulator, at entry (r, q): the sum over k of
    the left block at (r, k) times the right block at (k, q). -/
theorem mm_apply (a b : FVec Ideal S1024x1024 .bf16) (r q : Fin 1024) :
    FloatOps.matmul dot_S1024x1024_S1024x1024_S1024x1024_1_0_0_1_n_n none a b (constant S1024x1024 .f32 0x00000000#32) (ix2 r q)
      = ∑ k : Fin 1024, a (ix2 r k) * b (ix2 k q) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r q) ((contrEquiv1 dot_S1024x1024_S1024x1024_S1024x1024_1_0_0_1_n_n 1024 rfl rfl).symm k) = ix2 r k := funext fun ax => Fin.ext (by
    match ax with
    | ⟨0, _⟩ => exact lhs_row _ _
    | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 r q) ((contrEquiv1 dot_S1024x1024_S1024x1024_S1024x1024_1_0_0_1_n_n 1024 rfl rfl).symm k) = ix2 k q := funext fun ax => Fin.ext (by
    match ax with
    | ⟨0, _⟩ => exact (dot_S1024x1024_S1024x1024_S1024x1024_1_0_0_1_n_n.rhsIdx_val_of_single rfl _ _).trans hk
    | ⟨1, _⟩ => exact rhs_col _ _)
  rw [el, er]

/-- THE BODY AT AN ENTRY: entry (r, q) of the stored block is the sum over k of the x block at (r, k) times the
    weight block at (k, q), plus the bias row at column q. The narrowing conversions are the identity on
    extended reals. -/
theorem pay_apply (x0 : Vec Ideal S1024x1024 .f32) (x1 : Vec Ideal S1024x1024 .bf16) (x2 : Vec Ideal S1x1024 .f32)
    (r q : Fin 1024) :
    Gen.k0_pay1 (F := Ideal) x0 x1 x2 (ix2 r q)
      = (∑ k : Fin 1024, x0 (ix2 r k) * x1 (ix2 k q)) + x2 (ix2 (0 : Fin 1) q) := by
  unfold Gen.k0_pay1
  simp only [shapeCast_self, matmul]
  rw [truncf_apply, addf_apply, mm_apply, broadcastTo_1b_ab_apply]
  rfl

/-! ## The layer as one function of whole arrays -/

/-- Entry (p, q) of x · Wt + b: the sum over k of x at (p, k) times Wt at (k, q), plus the bias at column q. -/
def lin (A0 : S8192x1024.Idx → EReal) (A1 : S1024x1024.Idx → EReal) (A2 : S1x1024.Idx → EReal)
    (p : Fin 8192) (q : Fin 1024) : EReal :=
  (∑ k : Fin 1024, A0 (ix2 p k) * A1 (ix2 k q)) + A2 (ix2 (0 : Fin 1) q)

/-- The same, as an array over [8192, 1024]. -/
abbrev G (A0 : S8192x1024.Idx → EReal) (A1 : S1024x1024.Idx → EReal) (A2 : S1x1024.Idx → EReal) :
    S8192x1024.Idx → EReal := fun i => lin A0 A1 A2 (i 0) (i 1)

/-- One entry of a computed block against one entry of the whole-array function: when the x block's row r is row p
    of x, and the weight and bias blocks are the whole weight and bias arrays, entry (r, q) of the body's result is
    entry (p, q) of x · Wt + b. -/
theorem point_eq (x0 : Vec Ideal S1024x1024 .f32) (x1 : Vec Ideal S1024x1024 .bf16) (x2 : Vec Ideal S1x1024 .f32)
    (A0 : S8192x1024.Idx → EReal) (A1 : S1024x1024.Idx → EReal) (A2 : S1x1024.Idx → EReal)
    (r q : Fin 1024) (p : Fin 8192)
    (h0 : ∀ k : Fin 1024, x0 (ix2 r k) = A0 (ix2 p k))
    (h1 : ∀ k : Fin 1024, x1 (ix2 k q) = A1 (ix2 k q))
    (h2 : x2 (ix2 (0 : Fin 1) q) = A2 (ix2 (0 : Fin 1) q)) :
    Gen.k0_pay1 (F := Ideal) x0 x1 x2 (ix2 r q) = lin A0 A1 A2 p q := by
  rw [pay_apply, h2]
  unfold lin
  exact congrArg (· + A2 (ix2 (0 : Fin 1) q)) (Finset.sum_congr rfl fun k _ => by rw [h0 k, h1 k])

/-! ## The blocks -/

variable (V : (c : Dev nD) → (b : Ref sig .tc) → Buf (Elt Ideal) ((c : Thread nD τ).loc b))

/-- The index maps, decided over the 8 grid points: point t takes row-tile t of x and of the output, and the whole
    weight and bias arrays. -/
theorem tile_index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The x block at point t: its entry (r, k) is x at row 1024 t + r, column k. -/
theorem xblk_apply (c : Dev nD) (t : Fin cfg0.N) (r k : Fin 1024) (p : Fin 8192) (hp : p.val = t.val * 1024 + r.val) :
    (Gen.iblk0 V c 0 t : Vec Ideal S1024x1024 .f32) (ix2 r k) = (V c main_v0 : S8192x1024.Idx → EReal) (ix2 p k) := by
  obtain ⟨e0, e1, -⟩ := tile_index_maps t
  unfold Gen.iblk0
  rw [View.read_apply]
  show V c main_v0 _ = V c main_v0 _
  congr 1
  funext a
  apply Fin.ext
  match a with
  | ⟨0, _⟩ => show win0_0.index t (0 : Fin 2) * 1024 + 1 * r.val = p.val; rw [e0, hp]; omega
  | ⟨1, _⟩ => show win0_0.index t (1 : Fin 2) * 1024 + 1 * k.val = k.val; rw [e1]; omega

/-- The weight block at any point is the whole weight array. -/
theorem wblk_apply (c : Dev nD) (t : Fin cfg0.N) (k q : Fin 1024) :
    (Gen.iblk0 V c 1 t : Vec Ideal S1024x1024 .bf16) (ix2 k q) = (V c main_v2 : S1024x1024.Idx → EReal) (ix2 k q) := by
  obtain ⟨-, -, e2, e3, -⟩ := tile_index_maps t
  unfold Gen.iblk0
  rw [View.read_apply]
  show V c main_v2 _ = V c main_v2 _
  congr 1
  funext a
  apply Fin.ext
  match a with
  | ⟨0, _⟩ => show win0_1.index t (0 : Fin 2) * 1024 + 1 * k.val = k.val; rw [e2]; omega
  | ⟨1, _⟩ => show win0_1.index t (1 : Fin 2) * 1024 + 1 * q.val = q.val; rw [e3]; omega

/-- The bias block at any point is the whole bias row. -/
theorem bblk_apply (c : Dev nD) (t : Fin cfg0.N) (q : Fin 1024) :
    (Gen.iblk0 V c 2 t : Vec Ideal S1x1024 .f32) (ix2 (0 : Fin 1) q) = (V c main_v3 : S1x1024.Idx → EReal) (ix2 (0 : Fin 1) q) := by
  obtain ⟨-, -, -, -, e4, e5, -⟩ := tile_index_maps t
  unfold Gen.iblk0
  rw [View.read_apply]
  show V c main_v3 _ = V c main_v3 _
  congr 1
  funext a
  apply Fin.ext
  match a with
  | ⟨0, _⟩ => show win0_2.index t (0 : Fin 2) * 1 + 1 * (0 : Fin 1).val = (0 : Fin 1).val; rw [e4]; omega
  | ⟨1, _⟩ => show win0_2.index t (1 : Fin 2) * 1024 + 1 * q.val = q.val; rw [e5]; omega

/-- WHAT POINT t WRITES BACK is row-tile t of x · Wt + b of the arrays as the region finds them. -/
theorem tile_written_back (c : Dev nD) (t : Fin cfg0.N) :
    (Gen.dat0 (F := Ideal) V c).flushed 3 t
      = ((cfg0.win 3).blk t).view.read (Elt Ideal) (G (V c main_v0) (V c main_v2) (V c main_v3)) := by
  show (cfg0.win 3).cut (grid0.coords t) ((Gen.dat0 V c).after 3 t) = _
  rw [Gen.after0_3]
  unfold Gen.out0_3
  rw [View.canon_unit_zero zero_offsets]
  simp only [View.ld_unit_zero (S := S1024x1024) zero_offsets, View.ld_unit_zero (S := S1x1024) zero_offsets]
  obtain ⟨-, -, -, -, -, -, e6, e7⟩ := tile_index_maps t
  funext j
  have hj0 : (j 0).val < 1024 := (j 0).isLt
  have hj1 : (j 1).val < 1024 := (j 1).isLt
  have hr : (((cfg0.win 3).blk t).view.emb j (0 : Fin 2)).val = t.val * 1024 + (j 0).val := by
    show win0_3.index t (0 : Fin 2) * 1024 + 1 * (j 0).val = _; rw [e6]; omega
  have hc : (((cfg0.win 3).blk t).view.emb j (1 : Fin 2)).val = (j 1).val := by
    show win0_3.index t (1 : Fin 2) * 1024 + 1 * (j 1).val = _; rw [e7]; omega
  have hq : ((cfg0.win 3).blk t).view.emb j (1 : Fin 2) = (⟨(j 1).val, hj1⟩ : Fin 1024) := Fin.ext hc
  have hy : (win0 3).xinj (grid0.coords t) j = ix2 (⟨(j 0).val, hj0⟩ : Fin 1024) (⟨(j 1).val, hj1⟩ : Fin 1024) :=
    funext fun a => by match a with | ⟨0, _⟩ => rfl | ⟨1, _⟩ => rfl
  refine (congrArg (Gen.k0_pay1 (F := Ideal) (Gen.iblk0 V c 0 t) (Gen.iblk0 V c 1 t) (Gen.iblk0 V c 2 t)) hy).trans ?_
  refine (point_eq (Gen.iblk0 V c 0 t) (Gen.iblk0 V c 1 t) (Gen.iblk0 V c 2 t) (V c main_v0) (V c main_v2) (V c main_v3)
    ⟨(j 0).val, hj0⟩ ⟨(j 1).val, hj1⟩ (((cfg0.win 3).blk t).view.emb j (0 : Fin 2))
    (fun k => xblk_apply V c t ⟨(j 0).val, hj0⟩ k (((cfg0.win 3).blk t).view.emb j (0 : Fin 2)) hr)
    (fun k => wblk_apply V c t k ⟨(j 1).val, hj1⟩) (bblk_apply V c t ⟨(j 1).val, hj1⟩)).trans ?_
  show lin (V c main_v0) (V c main_v2) (V c main_v3) (((cfg0.win 3).blk t).view.emb j (0 : Fin 2)) ⟨(j 1).val, hj1⟩
    = lin (V c main_v0) (V c main_v2) (V c main_v3) (((cfg0.win 3).blk t).view.emb j (0 : Fin 2)) (((cfg0.win 3).blk t).view.emb j (1 : Fin 2))
  rw [hq]

/-- An index of the output array is in point t's block iff, on each axis, it lies in the block's range. -/
theorem mem_row_tile (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v4).slice (win0_3.rect t)).set ↔ _
  rw [View.set_slice_whole, Rect.mem_set_unit]
  exact Iff.rfl

/-- THE ROW TILES COVER THE OUTPUT: row p lies in the block of point p / 1024, and every point writes back. -/
theorem row_tiles_cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 8 := N_0
  have hlt : (i 0).val / 1024 < cfg0.N := by rw [hN]; omega
  obtain ⟨-, -, -, -, -, -, e6, e7⟩ := tile_index_maps ⟨(i 0).val / 1024, hlt⟩
  refine ⟨⟨(i 0).val / 1024, hlt⟩, flush0_3 _, ?_⟩
  rw [mem_row_tile]
  intro a
  match a with
  | ⟨0, _⟩ =>
    show win0_3.index ⟨(i 0).val / 1024, hlt⟩ (0 : Fin 2) * 1024 ≤ (i 0).val ∧ (i 0).val < win0_3.index ⟨(i 0).val / 1024, hlt⟩ (0 : Fin 2) * 1024 + 1024
    rw [e6]
    show (i 0).val / 1024 * 1024 ≤ (i 0).val ∧ (i 0).val < (i 0).val / 1024 * 1024 + 1024
    omega
  | ⟨1, _⟩ =>
    show win0_3.index ⟨(i 0).val / 1024, hlt⟩ (1 : Fin 2) * 1024 ≤ (i 1).val ∧ (i 1).val < win0_3.index ⟨(i 0).val / 1024, hlt⟩ (1 : Fin 2) * 1024 + 1024
    rw [e7]
    omega

/-- THE OUTPUT ARRAY after the region: x · Wt + b of the arrays as the region finds them. -/
theorem out_eq (c : Dev nD) :
    (Gen.dat0 (F := Ideal) V c).arrAt 3 cfg0.N = G (V c main_v0) (V c main_v2) (V c main_v3) :=
  (Gen.dat0 (F := Ideal) V c).arrAt_eq_of_cover 3 (G (V c main_v0) (V c main_v2) (V c main_v3))
    (fun t _ => tile_written_back V c t) row_tiles_cover

/-- The three input arrays as the region finds them, read as arrays of extended reals. -/
abbrev xin (c : Dev nD) : S8192x1024.Idx → EReal := V c main_v0
abbrev wt (c : Dev nD) : S1024x1024.Idx → EReal := V c main_v2
abbrev bias (c : Dev nD) : S1x1024.Idx → EReal := V c main_v3

/-- Entry (p, q) of the output array after the region, through the named function. -/
theorem out_apply_lin (c : Dev nD) (p : Fin 8192) (q : Fin 1024) :
    (Gen.dat0 (F := Ideal) V c).arrAt 3 cfg0.N (ix2 p q) = lin (V c main_v0) (V c main_v2) (V c main_v3) p q := by
  rw [out_eq]

/-- Entry (p, q) of the output array after the region: the sum over k of x at (p, k) times the transposed weight at
    (k, q), plus the bias at column q. -/
theorem out_apply (c : Dev nD) (p : Fin 8192) (q : Fin 1024) :
    (Gen.dat0 (F := Ideal) V c).arrAt 3 cfg0.N (ix2 p q)
      = (∑ k : Fin 1024, xin V c (ix2 p k) * wt V c (ix2 k q)) + bias V c (ix2 (0 : Fin 1) q) := by
  rw [out_eq]
  rfl

end Cert.KernelIdeal.Lin0

end
-- ==== Proof.Linear1.lean ====
/- The second linear region: the output array after the region is x · Wt + b of the arrays the region
   finds, entry by entry, at the ideal values (extended reals, where the narrowing conversions are the identity and a
   block product into a zero accumulator is a plain sum).
   The grid has 8 points; point t reads rows 1024 t … 1024 t + 1023 of x, the whole transposed weight and the whole
   bias row, and writes rows 1024 t … 1024 t + 1023 of the output. Entry (r, q) of the block a point computes is
   Σ_k xblock(r, k) · Wt(k, q) + b(0, q): it depends on one row of x, one column of Wt and one entry of b. Row p of the
   output lies in the block of point p / 1024, at row p mod 1024, so the blocks tile the output and every entry (p, q)
   ends at Σ_k x(p, k) · Wt(k, q) + b(0, q).
   In order: the body at an entry (`pay_apply`), the whole-array function (`lin`, `G`), each input block as rows of
   its array (`xblk_apply`, `wblk_apply`, `bblk_apply`), what a point writes back (`tile_written_back`), the cover
   (`row_tiles_cover`), the array after the region (`out_eq`, `out_apply`). Stated for any contents `V` at region entry. -/
import proofs.«157808_j62268435858121_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Lin1

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block rectangle, as a constant function. -/
theorem zero_offsets : (![0, 0] : Fin 2 → Nat) = fun _ => 0 := funext fun a => by fin_cases a <;> rfl

/-- The left operand's index of the block product at output entry `i` and contraction index `k`: row of `i`. -/
theorem lhs_row (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

/-- The right operand's index: column of `i`. -/
theorem rhs_col (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A [1024,1024] × [1024,1024] block product into a zero accumulator, at entry (r, q): the sum over k of
    the left block at (r, k) times the right block at (k, q). -/
theorem mm_apply (a b : FVec Ideal S1024x1024 .bf16) (r q : Fin 1024) :
    FloatOps.matmul dot_S1024x1024_S1024x1024_S1024x1024_1_0_0_1_n_n none a b (constant S1024x1024 .f32 0x00000000#32) (ix2 r q)
      = ∑ k : Fin 1024, a (ix2 r k) * b (ix2 k q) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r q) ((contrEquiv1 dot_S1024x1024_S1024x1024_S1024x1024_1_0_0_1_n_n 1024 rfl rfl).symm k) = ix2 r k := funext fun ax => Fin.ext (by
    match ax with
    | ⟨0, _⟩ => exact lhs_row _ _
    | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 r q) ((contrEquiv1 dot_S1024x1024_S1024x1024_S1024x1024_1_0_0_1_n_n 1024 rfl rfl).symm k) = ix2 k q := funext fun ax => Fin.ext (by
    match ax with
    | ⟨0, _⟩ => exact (dot_S1024x1024_S1024x1024_S1024x1024_1_0_0_1_n_n.rhsIdx_val_of_single rfl _ _).trans hk
    | ⟨1, _⟩ => exact rhs_col _ _)
  rw [el, er]

/-- THE BODY AT AN ENTRY: entry (r, q) of the stored block is the sum over k of the x block at (r, k) times the
    weight block at (k, q), plus the bias row at column q. The narrowing conversions are the identity on
    extended reals. -/
theorem pay_apply (x0 : Vec Ideal S1024x1024 .f32) (x1 : Vec Ideal S1024x1024 .bf16) (x2 : Vec Ideal S1x1024 .f32)
    (r q : Fin 1024) :
    Gen.k1_pay1 (F := Ideal) x0 x1 x2 (ix2 r q)
      = (∑ k : Fin 1024, x0 (ix2 r k) * x1 (ix2 k q)) + x2 (ix2 (0 : Fin 1) q) := by
  unfold Gen.k1_pay1
  simp only [shapeCast_self, matmul]
  rw [truncf_apply, addf_apply, mm_apply, broadcastTo_1b_ab_apply]
  rfl

/-! ## The layer as one function of whole arrays -/

/-- Entry (p, q) of x · Wt + b: the sum over k of x at (p, k) times Wt at (k, q), plus the bias at column q. -/
def lin (A0 : S8192x1024.Idx → EReal) (A1 : S1024x1024.Idx → EReal) (A2 : S1x1024.Idx → EReal)
    (p : Fin 8192) (q : Fin 1024) : EReal :=
  (∑ k : Fin 1024, A0 (ix2 p k) * A1 (ix2 k q)) + A2 (ix2 (0 : Fin 1) q)

/-- The same, as an array over [8192, 1024]. -/
abbrev G (A0 : S8192x1024.Idx → EReal) (A1 : S1024x1024.Idx → EReal) (A2 : S1x1024.Idx → EReal) :
    S8192x1024.Idx → EReal := fun i => lin A0 A1 A2 (i 0) (i 1)

/-- One entry of a computed block against one entry of the whole-array function: when the x block's row r is row p
    of x, and the weight and bias blocks are the whole weight and bias arrays, entry (r, q) of the body's result is
    entry (p, q) of x · Wt + b. -/
theorem point_eq (x0 : Vec Ideal S1024x1024 .f32) (x1 : Vec Ideal S1024x1024 .bf16) (x2 : Vec Ideal S1x1024 .f32)
    (A0 : S8192x1024.Idx → EReal) (A1 : S1024x1024.Idx → EReal) (A2 : S1x1024.Idx → EReal)
    (r q : Fin 1024) (p : Fin 8192)
    (h0 : ∀ k : Fin 1024, x0 (ix2 r k) = A0 (ix2 p k))
    (h1 : ∀ k : Fin 1024, x1 (ix2 k q) = A1 (ix2 k q))
    (h2 : x2 (ix2 (0 : Fin 1) q) = A2 (ix2 (0 : Fin 1) q)) :
    Gen.k1_pay1 (F := Ideal) x0 x1 x2 (ix2 r q) = lin A0 A1 A2 p q := by
  rw [pay_apply, h2]
  unfold lin
  exact congrArg (· + A2 (ix2 (0 : Fin 1) q)) (Finset.sum_congr rfl fun k _ => by rw [h0 k, h1 k])

/-! ## The blocks -/

variable (V : (c : Dev nD) → (b : Ref sig .tc) → Buf (Elt Ideal) ((c : Thread nD τ).loc b))

/-- The index maps, decided over the 8 grid points: point t takes row-tile t of x and of the output, and the whole
    weight and bias arrays. -/
theorem tile_index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The x block at point t: its entry (r, k) is x at row 1024 t + r, column k. -/
theorem xblk_apply (c : Dev nD) (t : Fin cfg1.N) (r k : Fin 1024) (p : Fin 8192) (hp : p.val = t.val * 1024 + r.val) :
    (Gen.iblk1 V c 0 t : Vec Ideal S1024x1024 .f32) (ix2 r k) = (V c main_v6 : S8192x1024.Idx → EReal) (ix2 p k) := by
  obtain ⟨e0, e1, -⟩ := tile_index_maps t
  unfold Gen.iblk1
  rw [View.read_apply]
  show V c main_v6 _ = V c main_v6 _
  congr 1
  funext a
  apply Fin.ext
  match a with
  | ⟨0, _⟩ => show win1_0.index t (0 : Fin 2) * 1024 + 1 * r.val = p.val; rw [e0, hp]; omega
  | ⟨1, _⟩ => show win1_0.index t (1 : Fin 2) * 1024 + 1 * k.val = k.val; rw [e1]; omega

/-- The weight block at any point is the whole weight array. -/
theorem wblk_apply (c : Dev nD) (t : Fin cfg1.N) (k q : Fin 1024) :
    (Gen.iblk1 V c 1 t : Vec Ideal S1024x1024 .bf16) (ix2 k q) = (V c main_v8 : S1024x1024.Idx → EReal) (ix2 k q) := by
  obtain ⟨-, -, e2, e3, -⟩ := tile_index_maps t
  unfold Gen.iblk1
  rw [View.read_apply]
  show V c main_v8 _ = V c main_v8 _
  congr 1
  funext a
  apply Fin.ext
  match a with
  | ⟨0, _⟩ => show win1_1.index t (0 : Fin 2) * 1024 + 1 * k.val = k.val; rw [e2]; omega
  | ⟨1, _⟩ => show win1_1.index t (1 : Fin 2) * 1024 + 1 * q.val = q.val; rw [e3]; omega

/-- The bias block at any point is the whole bias row. -/
theorem bblk_apply (c : Dev nD) (t : Fin cfg1.N) (q : Fin 1024) :
    (Gen.iblk1 V c 2 t : Vec Ideal S1x1024 .f32) (ix2 (0 : Fin 1) q) = (V c main_v9 : S1x1024.Idx → EReal) (ix2 (0 : Fin 1) q) := by
  obtain ⟨-, -, -, -, e4, e5, -⟩ := tile_index_maps t
  unfold Gen.iblk1
  rw [View.read_apply]
  show V c main_v9 _ = V c main_v9 _
  congr 1
  funext a
  apply Fin.ext
  match a with
  | ⟨0, _⟩ => show win1_2.index t (0 : Fin 2) * 1 + 1 * (0 : Fin 1).val = (0 : Fin 1).val; rw [e4]; omega
  | ⟨1, _⟩ => show win1_2.index t (1 : Fin 2) * 1024 + 1 * q.val = q.val; rw [e5]; omega

/-- WHAT POINT t WRITES BACK is row-tile t of x · Wt + b of the arrays as the region finds them. -/
theorem tile_written_back (c : Dev nD) (t : Fin cfg1.N) :
    (Gen.dat1 (F := Ideal) V c).flushed 3 t
      = ((cfg1.win 3).blk t).view.read (Elt Ideal) (G (V c main_v6) (V c main_v8) (V c main_v9)) := by
  show (cfg1.win 3).cut (grid1.coords t) ((Gen.dat1 V c).after 3 t) = _
  rw [Gen.after1_3]
  unfold Gen.out1_3
  rw [View.canon_unit_zero zero_offsets]
  simp only [View.ld_unit_zero (S := S1024x1024) zero_offsets, View.ld_unit_zero (S := S1x1024) zero_offsets]
  obtain ⟨-, -, -, -, -, -, e6, e7⟩ := tile_index_maps t
  funext j
  have hj0 : (j 0).val < 1024 := (j 0).isLt
  have hj1 : (j 1).val < 1024 := (j 1).isLt
  have hr : (((cfg1.win 3).blk t).view.emb j (0 : Fin 2)).val = t.val * 1024 + (j 0).val := by
    show win1_3.index t (0 : Fin 2) * 1024 + 1 * (j 0).val = _; rw [e6]; omega
  have hc : (((cfg1.win 3).blk t).view.emb j (1 : Fin 2)).val = (j 1).val := by
    show win1_3.index t (1 : Fin 2) * 1024 + 1 * (j 1).val = _; rw [e7]; omega
  have hq : ((cfg1.win 3).blk t).view.emb j (1 : Fin 2) = (⟨(j 1).val, hj1⟩ : Fin 1024) := Fin.ext hc
  have hy : (win1 3).xinj (grid1.coords t) j = ix2 (⟨(j 0).val, hj0⟩ : Fin 1024) (⟨(j 1).val, hj1⟩ : Fin 1024) :=
    funext fun a => by match a with | ⟨0, _⟩ => rfl | ⟨1, _⟩ => rfl
  refine (congrArg (Gen.k1_pay1 (F := Ideal) (Gen.iblk1 V c 0 t) (Gen.iblk1 V c 1 t) (Gen.iblk1 V c 2 t)) hy).trans ?_
  refine (point_eq (Gen.iblk1 V c 0 t) (Gen.iblk1 V c 1 t) (Gen.iblk1 V c 2 t) (V c main_v6) (V c main_v8) (V c main_v9)
    ⟨(j 0).val, hj0⟩ ⟨(j 1).val, hj1⟩ (((cfg1.win 3).blk t).view.emb j (0 : Fin 2))
    (fun k => xblk_apply V c t ⟨(j 0).val, hj0⟩ k (((cfg1.win 3).blk t).view.emb j (0 : Fin 2)) hr)
    (fun k => wblk_apply V c t k ⟨(j 1).val, hj1⟩) (bblk_apply V c t ⟨(j 1).val, hj1⟩)).trans ?_
  show lin (V c main_v6) (V c main_v8) (V c main_v9) (((cfg1.win 3).blk t).view.emb j (0 : Fin 2)) ⟨(j 1).val, hj1⟩
    = lin (V c main_v6) (V c main_v8) (V c main_v9) (((cfg1.win 3).blk t).view.emb j (0 : Fin 2)) (((cfg1.win 3).blk t).view.emb j (1 : Fin 2))
  rw [hq]

/-- An index of the output array is in point t's block iff, on each axis, it lies in the block's range. -/
theorem mem_row_tile (t : Fin cfg1.N) (i : S8192x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v10).slice (win1_3.rect t)).set ↔ _
  rw [View.set_slice_whole, Rect.mem_set_unit]
  exact Iff.rfl

/-- THE ROW TILES COVER THE OUTPUT: row p lies in the block of point p / 1024, and every point writes back. -/
theorem row_tiles_cover (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  have hN : cfg1.N = 8 := N_1
  have hlt : (i 0).val / 1024 < cfg1.N := by rw [hN]; omega
  obtain ⟨-, -, -, -, -, -, e6, e7⟩ := tile_index_maps ⟨(i 0).val / 1024, hlt⟩
  refine ⟨⟨(i 0).val / 1024, hlt⟩, flush1_3 _, ?_⟩
  rw [mem_row_tile]
  intro a
  match a with
  | ⟨0, _⟩ =>
    show win1_3.index ⟨(i 0).val / 1024, hlt⟩ (0 : Fin 2) * 1024 ≤ (i 0).val ∧ (i 0).val < win1_3.index ⟨(i 0).val / 1024, hlt⟩ (0 : Fin 2) * 1024 + 1024
    rw [e6]
    show (i 0).val / 1024 * 1024 ≤ (i 0).val ∧ (i 0).val < (i 0).val / 1024 * 1024 + 1024
    omega
  | ⟨1, _⟩ =>
    show win1_3.index ⟨(i 0).val / 1024, hlt⟩ (1 : Fin 2) * 1024 ≤ (i 1).val ∧ (i 1).val < win1_3.index ⟨(i 0).val / 1024, hlt⟩ (1 : Fin 2) * 1024 + 1024
    rw [e7]
    omega

/-- THE OUTPUT ARRAY after the region: x · Wt + b of the arrays as the region finds them. -/
theorem out_eq (c : Dev nD) :
    (Gen.dat1 (F := Ideal) V c).arrAt 3 cfg1.N = G (V c main_v6) (V c main_v8) (V c main_v9) :=
  (Gen.dat1 (F := Ideal) V c).arrAt_eq_of_cover 3 (G (V c main_v6) (V c main_v8) (V c main_v9))
    (fun t _ => tile_written_back V c t) row_tiles_cover

/-- The three input arrays as the region finds them, read as arrays of extended reals. -/
abbrev xin (c : Dev nD) : S8192x1024.Idx → EReal := V c main_v6
abbrev wt (c : Dev nD) : S1024x1024.Idx → EReal := V c main_v8
abbrev bias (c : Dev nD) : S1x1024.Idx → EReal := V c main_v9

/-- Entry (p, q) of the output array after the region, through the named function. -/
theorem out_apply_lin (c : Dev nD) (p : Fin 8192) (q : Fin 1024) :
    (Gen.dat1 (F := Ideal) V c).arrAt 3 cfg1.N (ix2 p q) = lin (V c main_v6) (V c main_v8) (V c main_v9) p q := by
  rw [out_eq]

/-- Entry (p, q) of the output array after the region: the sum over k of x at (p, k) times the transposed weight at
    (k, q), plus the bias at column q. -/
theorem out_apply (c : Dev nD) (p : Fin 8192) (q : Fin 1024) :
    (Gen.dat1 (F := Ideal) V c).arrAt 3 cfg1.N (ix2 p q)
      = (∑ k : Fin 1024, xin V c (ix2 p k) * wt V c (ix2 k q)) + bias V c (ix2 (0 : Fin 1) q) := by
  rw [out_eq]
  rfl

end Cert.KernelIdeal.Lin1

end
-- ==== Proof.Linear3.lean ====
/- The last linear region (its output array is f32, so the body ends at the sum, with no final narrowing): the output array after the region is x · Wt + b of the arrays the region
   finds, entry by entry, at the ideal values (extended reals, where the narrowing conversions are the identity and a
   block product into a zero accumulator is a plain sum).
   The grid has 8 points; point t reads rows 1024 t … 1024 t + 1023 of x, the whole transposed weight and the whole
   bias row, and writes rows 1024 t … 1024 t + 1023 of the output. Entry (r, q) of the block a point computes is
   Σ_k xblock(r, k) · Wt(k, q) + b(0, q): it depends on one row of x, one column of Wt and one entry of b. Row p of the
   output lies in the block of point p / 1024, at row p mod 1024, so the blocks tile the output and every entry (p, q)
   ends at Σ_k x(p, k) · Wt(k, q) + b(0, q).
   In order: the body at an entry (`pay_apply`), the whole-array function (`lin`, `G`), each input block as rows of
   its array (`xblk_apply`, `wblk_apply`, `bblk_apply`), what a point writes back (`tile_written_back`), the cover
   (`row_tiles_cover`), the array after the region (`out_eq`, `out_apply`). Stated for any contents `V` at region entry. -/
import proofs.«157808_j62268435858121_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Lin3

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block rectangle, as a constant function. -/
theorem zero_offsets : (![0, 0] : Fin 2 → Nat) = fun _ => 0 := funext fun a => by fin_cases a <;> rfl

/-- The left operand's index of the block product at output entry `i` and contraction index `k`: row of `i`. -/
theorem lhs_row (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

/-- The right operand's index: column of `i`. -/
theorem rhs_col (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A [1024,1024] × [1024,1024] block product into a zero accumulator, at entry (r, q): the sum over k of
    the left block at (r, k) times the right block at (k, q). -/
theorem mm_apply (a b : FVec Ideal S1024x1024 .bf16) (r q : Fin 1024) :
    FloatOps.matmul dot_S1024x1024_S1024x1024_S1024x1024_1_0_0_1_n_n none a b (constant S1024x1024 .f32 0x00000000#32) (ix2 r q)
      = ∑ k : Fin 1024, a (ix2 r k) * b (ix2 k q) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r q) ((contrEquiv1 dot_S1024x1024_S1024x1024_S1024x1024_1_0_0_1_n_n 1024 rfl rfl).symm k) = ix2 r k := funext fun ax => Fin.ext (by
    match ax with
    | ⟨0, _⟩ => exact lhs_row _ _
    | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 r q) ((contrEquiv1 dot_S1024x1024_S1024x1024_S1024x1024_1_0_0_1_n_n 1024 rfl rfl).symm k) = ix2 k q := funext fun ax => Fin.ext (by
    match ax with
    | ⟨0, _⟩ => exact (dot_S1024x1024_S1024x1024_S1024x1024_1_0_0_1_n_n.rhsIdx_val_of_single rfl _ _).trans hk
    | ⟨1, _⟩ => exact rhs_col _ _)
  rw [el, er]

/-- THE BODY AT AN ENTRY: entry (r, q) of the stored block is the sum over k of the x block at (r, k) times the
    weight block at (k, q), plus the bias row at column q. The narrowing conversions are the identity on
    extended reals. -/
theorem pay_apply (x0 : Vec Ideal S1024x1024 .f32) (x1 : Vec Ideal S1024x1024 .bf16) (x2 : Vec Ideal S1x1024 .f32)
    (r q : Fin 1024) :
    Gen.k3_pay1 (F := Ideal) x0 x1 x2 (ix2 r q)
      = (∑ k : Fin 1024, x0 (ix2 r k) * x1 (ix2 k q)) + x2 (ix2 (0 : Fin 1) q) := by
  unfold Gen.k3_pay1
  simp only [shapeCast_self, matmul]
  rw [addf_apply, mm_apply, broadcastTo_1b_ab_apply]
  rfl

/-! ## The layer as one function of whole arrays -/

/-- Entry (p, q) of x · Wt + b: the sum over k of x at (p, k) times Wt at (k, q), plus the bias at column q. -/
def lin (A0 : S8192x1024.Idx → EReal) (A1 : S1024x1024.Idx → EReal) (A2 : S1x1024.Idx → EReal)
    (p : Fin 8192) (q : Fin 1024) : EReal :=
  (∑ k : Fin 1024, A0 (ix2 p k) * A1 (ix2 k q)) + A2 (ix2 (0 : Fin 1) q)

/-- The same, as an array over [8192, 1024]. -/
abbrev G (A0 : S8192x1024.Idx → EReal) (A1 : S1024x1024.Idx → EReal) (A2 : S1x1024.Idx → EReal) :
    S8192x1024.Idx → EReal := fun i => lin A0 A1 A2 (i 0) (i 1)

/-- One entry of a computed block against one entry of the whole-array function: when the x block's row r is row p
    of x, and the weight and bias blocks are the whole weight and bias arrays, entry (r, q) of the body's result is
    entry (p, q) of x · Wt + b. -/
theorem point_eq (x0 : Vec Ideal S1024x1024 .f32) (x1 : Vec Ideal S1024x1024 .bf16) (x2 : Vec Ideal S1x1024 .f32)
    (A0 : S8192x1024.Idx → EReal) (A1 : S1024x1024.Idx → EReal) (A2 : S1x1024.Idx → EReal)
    (r q : Fin 1024) (p : Fin 8192)
    (h0 : ∀ k : Fin 1024, x0 (ix2 r k) = A0 (ix2 p k))
    (h1 : ∀ k : Fin 1024, x1 (ix2 k q) = A1 (ix2 k q))
    (h2 : x2 (ix2 (0 : Fin 1) q) = A2 (ix2 (0 : Fin 1) q)) :
    Gen.k3_pay1 (F := Ideal) x0 x1 x2 (ix2 r q) = lin A0 A1 A2 p q := by
  rw [pay_apply, h2]
  unfold lin
  exact congrArg (· + A2 (ix2 (0 : Fin 1) q)) (Finset.sum_congr rfl fun k _ => by rw [h0 k, h1 k])

/-! ## The blocks -/

variable (V : (c : Dev nD) → (b : Ref sig .tc) → Buf (Elt Ideal) ((c : Thread nD τ).loc b))

/-- The index maps, decided over the 8 grid points: point t takes row-tile t of x and of the output, and the whole
    weight and bias arrays. -/
theorem tile_index_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The x block at point t: its entry (r, k) is x at row 1024 t + r, column k. -/
theorem xblk_apply (c : Dev nD) (t : Fin cfg3.N) (r k : Fin 1024) (p : Fin 8192) (hp : p.val = t.val * 1024 + r.val) :
    (Gen.iblk3 V c 0 t : Vec Ideal S1024x1024 .f32) (ix2 r k) = (V c main_v16 : S8192x1024.Idx → EReal) (ix2 p k) := by
  obtain ⟨e0, e1, -⟩ := tile_index_maps t
  unfold Gen.iblk3
  rw [View.read_apply]
  show V c main_v16 _ = V c main_v16 _
  congr 1
  funext a
  apply Fin.ext
  match a with
  | ⟨0, _⟩ => show win3_0.index t (0 : Fin 2) * 1024 + 1 * r.val = p.val; rw [e0, hp]; omega
  | ⟨1, _⟩ => show win3_0.index t (1 : Fin 2) * 1024 + 1 * k.val = k.val; rw [e1]; omega

/-- The weight block at any point is the whole weight array. -/
theorem wblk_apply (c : Dev nD) (t : Fin cfg3.N) (k q : Fin 1024) :
    (Gen.iblk3 V c 1 t : Vec Ideal S1024x1024 .bf16) (ix2 k q) = (V c main_v18 : S1024x1024.Idx → EReal) (ix2 k q) := by
  obtain ⟨-, -, e2, e3, -⟩ := tile_index_maps t
  unfold Gen.iblk3
  rw [View.read_apply]
  show V c main_v18 _ = V c main_v18 _
  congr 1
  funext a
  apply Fin.ext
  match a with
  | ⟨0, _⟩ => show win3_1.index t (0 : Fin 2) * 1024 + 1 * k.val = k.val; rw [e2]; omega
  | ⟨1, _⟩ => show win3_1.index t (1 : Fin 2) * 1024 + 1 * q.val = q.val; rw [e3]; omega

/-- The bias block at any point is the whole bias row. -/
theorem bblk_apply (c : Dev nD) (t : Fin cfg3.N) (q : Fin 1024) :
    (Gen.iblk3 V c 2 t : Vec Ideal S1x1024 .f32) (ix2 (0 : Fin 1) q) = (V c main_v19 : S1x1024.Idx → EReal) (ix2 (0 : Fin 1) q) := by
  obtain ⟨-, -, -, -, e4, e5, -⟩ := tile_index_maps t
  unfold Gen.iblk3
  rw [View.read_apply]
  show V c main_v19 _ = V c main_v19 _
  congr 1
  funext a
  apply Fin.ext
  match a with
  | ⟨0, _⟩ => show win3_2.index t (0 : Fin 2) * 1 + 1 * (0 : Fin 1).val = (0 : Fin 1).val; rw [e4]; omega
  | ⟨1, _⟩ => show win3_2.index t (1 : Fin 2) * 1024 + 1 * q.val = q.val; rw [e5]; omega

/-- WHAT POINT t WRITES BACK is row-tile t of x · Wt + b of the arrays as the region finds them. -/
theorem tile_written_back (c : Dev nD) (t : Fin cfg3.N) :
    (Gen.dat3 (F := Ideal) V c).flushed 3 t
      = ((cfg3.win 3).blk t).view.read (Elt Ideal) (G (V c main_v16) (V c main_v18) (V c main_v19)) := by
  show (cfg3.win 3).cut (grid3.coords t) ((Gen.dat3 V c).after 3 t) = _
  rw [Gen.after3_3]
  unfold Gen.out3_3
  rw [View.canon_unit_zero zero_offsets]
  simp only [View.ld_unit_zero (S := S1024x1024) zero_offsets, View.ld_unit_zero (S := S1x1024) zero_offsets]
  obtain ⟨-, -, -, -, -, -, e6, e7⟩ := tile_index_maps t
  funext j
  have hj0 : (j 0).val < 1024 := (j 0).isLt
  have hj1 : (j 1).val < 1024 := (j 1).isLt
  have hr : (((cfg3.win 3).blk t).view.emb j (0 : Fin 2)).val = t.val * 1024 + (j 0).val := by
    show win3_3.index t (0 : Fin 2) * 1024 + 1 * (j 0).val = _; rw [e6]; omega
  have hc : (((cfg3.win 3).blk t).view.emb j (1 : Fin 2)).val = (j 1).val := by
    show win3_3.index t (1 : Fin 2) * 1024 + 1 * (j 1).val = _; rw [e7]; omega
  have hq : ((cfg3.win 3).blk t).view.emb j (1 : Fin 2) = (⟨(j 1).val, hj1⟩ : Fin 1024) := Fin.ext hc
  have hy : (win3 3).xinj (grid3.coords t) j = ix2 (⟨(j 0).val, hj0⟩ : Fin 1024) (⟨(j 1).val, hj1⟩ : Fin 1024) :=
    funext fun a => by match a with | ⟨0, _⟩ => rfl | ⟨1, _⟩ => rfl
  refine (congrArg (Gen.k3_pay1 (F := Ideal) (Gen.iblk3 V c 0 t) (Gen.iblk3 V c 1 t) (Gen.iblk3 V c 2 t)) hy).trans ?_
  refine (point_eq (Gen.iblk3 V c 0 t) (Gen.iblk3 V c 1 t) (Gen.iblk3 V c 2 t) (V c main_v16) (V c main_v18) (V c main_v19)
    ⟨(j 0).val, hj0⟩ ⟨(j 1).val, hj1⟩ (((cfg3.win 3).blk t).view.emb j (0 : Fin 2))
    (fun k => xblk_apply V c t ⟨(j 0).val, hj0⟩ k (((cfg3.win 3).blk t).view.emb j (0 : Fin 2)) hr)
    (fun k => wblk_apply V c t k ⟨(j 1).val, hj1⟩) (bblk_apply V c t ⟨(j 1).val, hj1⟩)).trans ?_
  show lin (V c main_v16) (V c main_v18) (V c main_v19) (((cfg3.win 3).blk t).view.emb j (0 : Fin 2)) ⟨(j 1).val, hj1⟩
    = lin (V c main_v16) (V c main_v18) (V c main_v19) (((cfg3.win 3).blk t).view.emb j (0 : Fin 2)) (((cfg3.win 3).blk t).view.emb j (1 : Fin 2))
  rw [hq]

/-- An index of the output array is in point t's block iff, on each axis, it lies in the block's range. -/
theorem mem_row_tile (t : Fin cfg3.N) (i : S8192x1024.Idx) :
    i ∈ ((cfg3.win 3).blk t).view.set ↔ ∀ a : Fin 2, win3_3.index t a * S1024x1024.size a ≤ (i a).val ∧ (i a).val < win3_3.index t a * S1024x1024.size a + S1024x1024.size a := by
  show i ∈ ((View.whole main_v20).slice (win3_3.rect t)).set ↔ _
  rw [View.set_slice_whole, Rect.mem_set_unit]
  exact Iff.rfl

/-- THE ROW TILES COVER THE OUTPUT: row p lies in the block of point p / 1024, and every point writes back. -/
theorem row_tiles_cover (i : S8192x1024.Idx) :
    ∃ t : Fin cfg3.N, (cfg3.win 3).flush t = true ∧ i ∈ ((cfg3.win 3).blk t).view.set := by
  have hi0 : (i 0).val < 8192 := (i 0).isLt
  have hi1 : (i 1).val < 1024 := (i 1).isLt
  have hN : cfg3.N = 8 := N_3
  have hlt : (i 0).val / 1024 < cfg3.N := by rw [hN]; omega
  obtain ⟨-, -, -, -, -, -, e6, e7⟩ := tile_index_maps ⟨(i 0).val / 1024, hlt⟩
  refine ⟨⟨(i 0).val / 1024, hlt⟩, flush3_3 _, ?_⟩
  rw [mem_row_tile]
  intro a
  match a with
  | ⟨0, _⟩ =>
    show win3_3.index ⟨(i 0).val / 1024, hlt⟩ (0 : Fin 2) * 1024 ≤ (i 0).val ∧ (i 0).val < win3_3.index ⟨(i 0).val / 1024, hlt⟩ (0 : Fin 2) * 1024 + 1024
    rw [e6]
    show (i 0).val / 1024 * 1024 ≤ (i 0).val ∧ (i 0).val < (i 0).val / 1024 * 1024 + 1024
    omega
  | ⟨1, _⟩ =>
    show win3_3.index ⟨(i 0).val / 1024, hlt⟩ (1 : Fin 2) * 1024 ≤ (i 1).val ∧ (i 1).val < win3_3.index ⟨(i 0).val / 1024, hlt⟩ (1 : Fin 2) * 1024 + 1024
    rw [e7]
    omega

/-- THE OUTPUT ARRAY after the region: x · Wt + b of the arrays as the region finds them. -/
theorem out_eq (c : Dev nD) :
    (Gen.dat3 (F := Ideal) V c).arrAt 3 cfg3.N = G (V c main_v16) (V c main_v18) (V c main_v19) :=
  (Gen.dat3 (F := Ideal) V c).arrAt_eq_of_cover 3 (G (V c main_v16) (V c main_v18) (V c main_v19))
    (fun t _ => tile_written_back V c t) row_tiles_cover

/-- The three input arrays as the region finds them, read as arrays of extended reals. -/
abbrev xin (c : Dev nD) : S8192x1024.Idx → EReal := V c main_v16
abbrev wt (c : Dev nD) : S1024x1024.Idx → EReal := V c main_v18
abbrev bias (c : Dev nD) : S1x1024.Idx → EReal := V c main_v19

/-- Entry (p, q) of the output array after the region, through the named function. -/
theorem out_apply_lin (c : Dev nD) (p : Fin 8192) (q : Fin 1024) :
    (Gen.dat3 (F := Ideal) V c).arrAt 3 cfg3.N (ix2 p q) = lin (V c main_v16) (V c main_v18) (V c main_v19) p q := by
  rw [out_eq]

/-- Entry (p, q) of the output array after the region: the sum over k of x at (p, k) times the transposed weight at
    (k, q), plus the bias at column q. -/
theorem out_apply (c : Dev nD) (p : Fin 8192) (q : Fin 1024) :
    (Gen.dat3 (F := Ideal) V c).arrAt 3 cfg3.N (ix2 p q)
      = (∑ k : Fin 1024, xin V c (ix2 p k) * wt V c (ix2 k q)) + bias V c (ix2 (0 : Fin 1) q) := by
  rw [out_eq]
  rfl

end Cert.KernelIdeal.Lin3

end
-- ==== Proof.AttnSpec.lean ====
/- The attention layer's mathematics over the extended reals, index by index: the scaled scores of a query row
   against every key row, the row's supremum, the exponentials of the scores shifted by it, their normalisation by
   the row's total, and the weighted sum of the value rows. -/
import Idealize.ShloMosaic.PureOps.Ideal
import Idealize.ShloMosaic.Lib.ValueIdx

noncomputable section

open scoped BigOperators

namespace Cert.AttnSpec

open Idealize.ShloMosaic Idealize.ShloMosaic.ValueIdx

/-- The factor every score is multiplied by: the extended real the word of 2⁻⁵ denotes. -/
def scale : EReal := Ideal.ofBits .f32 0x3D000000#32

/-- The score of query row `s` against key row `t` of batch `b`: their inner product over the 1024 features, scaled. -/
def score (Q K : (⟨3, ![4, 2048, 1024]⟩ : Shape).Idx → EReal) (b : Fin 4) (s t : Fin 2048) : EReal :=
  (∑ e : Fin 1024, Q (ix3 b s e) * K (ix3 b t e)) * scale

/-- The supremum of row `s`'s scores over all key rows (the lattice's; the empty supremum would be `⊥ = -∞`). -/
def rowMax (Q K : (⟨3, ![4, 2048, 1024]⟩ : Shape).Idx → EReal) (b : Fin 4) (s : Fin 2048) : EReal :=
  Finset.univ.sup (fun t : Fin 2048 => score Q K b s t)

/-- The exponential of a score shifted by its row's supremum. -/
def expo (Q K : (⟨3, ![4, 2048, 1024]⟩ : Shape).Idx → EReal) (b : Fin 4) (s t : Fin 2048) : EReal :=
  Ideal.exp (score Q K b s t - rowMax Q K b s)

/-- The attention weight: the shifted exponential divided by the sum of its row's. -/
def attn (Q K : (⟨3, ![4, 2048, 1024]⟩ : Shape).Idx → EReal) (b : Fin 4) (s t : Fin 2048) : EReal :=
  Ideal.div (expo Q K b s t) (∑ u : Fin 2048, expo Q K b s u)

/-- The output: row `s`'s weights applied to the value rows, feature by feature. -/
def outp (Q K Vv : (⟨3, ![4, 2048, 1024]⟩ : Shape).Idx → EReal) (b : Fin 4) (s : Fin 2048) (e : Fin 1024) : EReal :=
  ∑ t : Fin 2048, attn Q K b s t * Vv (ix3 b t e)

/-- The word of `-∞` is the lattice's bottom. -/
theorem ofBits_negInf_f32 : Ideal.ofBits .f32 0xFF800000#32 = (⊥ : EReal) := by
  simp [Ideal.ofBits, Ideal.ieee]

/-- A fold of `max` from `⊥` over a finite set is the set's supremum. -/
theorem fold_max_bot_eq_sup {ι : Type*} (S : Finset ι) (f : ι → EReal) :
    S.fold max (⊥ : EReal) f = S.sup f := rfl

end Cert.AttnSpec

end
-- ==== Proof.AttnLayout.lean ====
/- Steps of the attention block's computation read at an index: a vector kept as a column and spread over the rows
   again, a row's maximum and a row's sum in that form, and the two matrix products as sums over the contracted axis. -/
import proofs.«157808_j62268435858121_2_alg».proof.Proof.Gen.KernelIdeal.Skeleton
import proofs.«157808_j62268435858121_2_alg».proof.Proof.AttnSpec
import Idealize.ShloMosaic.Lib.ValueLayout
import Idealize.ShloMosaic.Lib.Pipeline.Value
import Idealize.ShloMosaic.PureOps.Ideal.Laws

noncomputable section

open scoped BigOperators

namespace Cert.KernelIdeal.Attn

open Idealize.ShloMosaic Idealize.ShloMosaic.ValueIdx Idealize.ShloMosaic.TcCoe Idealize.SL.Sem
open Cert.KernelIdeal Cert.KernelIdeal.Gen

/-! ## Layout steps the kernel's block computation goes through, read at an index -/

/-- A vector of length `a` cast to a column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its rows to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over the columns inserts: row `r` with column `u`. -/
theorem lift_row (h : S256x2048.Reduces [1] S256) (r : Fin 256) (u : Fin 2048) :
    h.lift (ix1 r) u = ix2 r u :=
  funext fun a => Fin.ext (by match a with | ⟨0, _⟩ => rfl | ⟨1, _⟩ => rfl)

/-- A row's maximum kept as a column and spread over the row again: at `(r, t)` the supremum of row `r`. -/
theorem rowmax_spread (v : FVec Ideal S256x2048 .f32) (hφ : FKind.Formats .f32)
    (hacc : (0xFF800000#32 : BitVec 32) = FKind.maximumf.neutral .f32 hφ) (r : Fin 256) (t : Fin 2048) :
    broadcastTo S256x2048 (shapeCast S256x1 (multiReduction (F := Ideal) .maximumf [1] S256 v 0xFF800000#32 reduces_S256x2048_S256 hφ hacc) shapeCasts_S256_S256x1) broadcasts_S256x1_S256x2048 (ix2 r t)
      = Finset.univ.sup (fun u : Fin 2048 => v (ix2 r u)) := by
  refine (broadcastTo_a1_ab_apply _ _ r t).trans ?_
  refine (shapeCast_a_a1_apply _ _ r 0).trans ?_
  refine (Ideal.multiReduction_maximumf_single v 0xFF800000#32 reduces_S256x2048_S256 hφ hacc (ix1 r)).trans ?_
  have e : (fun u : Fin 2048 => v (reduces_S256x2048_S256.lift (ix1 r) u)) = fun u : Fin 2048 => v (ix2 r u) :=
    funext fun u => congrArg v (lift_row _ r u)
  refine (congrArg (fun f => (Finset.univ : Finset (Fin 2048)).fold max (Ideal.ofBits .f32 0xFF800000#32) f) e).trans ?_
  rw [AttnSpec.ofBits_negInf_f32]
  rfl

/-- A row's sum kept as a column and spread over the row again: at `(r, t)` the sum of row `r`. -/
theorem rowsum_spread (v : FVec Ideal S256x2048 .f32) (hφ : FKind.Formats .f32)
    (hacc : (0x00000000#32 : BitVec 32) = FKind.add.neutral .f32 hφ) (r : Fin 256) (t : Fin 2048) :
    broadcastTo S256x2048 (shapeCast S256x1 (multiReduction (F := Ideal) .add [1] S256 v 0x00000000#32 reduces_S256x2048_S256 hφ hacc) shapeCasts_S256_S256x1) broadcasts_S256x1_S256x2048 (ix2 r t)
      = ∑ u : Fin 2048, v (ix2 r u) := by
  refine (broadcastTo_a1_ab_apply _ _ r t).trans ?_
  refine (shapeCast_a_a1_apply _ _ r 0).trans ?_
  refine (Ideal.multiReduction_add_single v 0x00000000#32 reduces_S256x2048_S256 hφ hacc (ix1 r)).trans ?_
  exact Finset.sum_congr rfl fun u _ => congrArg v (lift_row _ r u)

/-! ## The two products, read at an index -/

theorem matmul_qk_lhs_0 (i : S256x2048.Idx) (q : dot_S256x1024_S1024x2048_S256x2048_1_0_0_1_n_n.contr.Idx) : (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem matmul_qk_lhs_1 (i : S256x2048.Idx) (q : dot_S256x1024_S1024x2048_S256x2048_1_0_0_1_n_n.contr.Idx) : (dot_S256x1024_S1024x2048_S256x2048_1_0_0_1_n_n.lhsIdx i q 1).val = (q ⟨0, by decide⟩).val :=
  dot_S256x1024_S1024x2048_S256x2048_1_0_0_1_n_n.lhsIdx_val_of_single rfl i q
theorem matmul_qk_rhs_0 (i : S256x2048.Idx) (q : dot_S256x1024_S1024x2048_S256x2048_1_0_0_1_n_n.contr.Idx) : (dot_S256x1024_S1024x2048_S256x2048_1_0_0_1_n_n.rhsIdx i q 0).val = (q ⟨0, by decide⟩).val :=
  dot_S256x1024_S1024x2048_S256x2048_1_0_0_1_n_n.rhsIdx_val_of_single rfl i q
theorem matmul_qk_rhs_1 (i : S256x2048.Idx) (q : dot_S256x1024_S1024x2048_S256x2048_1_0_0_1_n_n.contr.Idx) : (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- The query-by-key product at `(r, t)`: the sum over the 1024 features of row `r` of the left factor against column `t` of the right. -/
theorem matmul_qk_apply (lhs : FVec Ideal S256x1024 .bf16) (rhs : FVec Ideal S1024x2048 .bf16) (r : Fin 256) (t : Fin 2048) :
    matmul dot_S256x1024_S1024x2048_S256x2048_1_0_0_1_n_n none lhs rhs (constant (F := Ideal) S256x2048 .f32 0x00000000#32) (ix2 r t)
      = ∑ k : Fin 1024, lhs (ix2 r k) * rhs (ix2 k t) := by
  refine (Ideal.matmul_constant_zero_apply dot_S256x1024_S1024x2048_S256x2048_1_0_0_1_n_n none lhs rhs (ix2 r t)).trans ?_
  rw [← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 r t) ((contrEquiv1 dot_S256x1024_S1024x2048_S256x2048_1_0_0_1_n_n 1024 rfl rfl).symm k) = ix2 r k := funext fun a => Fin.ext (by
    match a with
    | ⟨0, _⟩ => exact matmul_qk_lhs_0 _ _
    | ⟨1, _⟩ => exact (matmul_qk_lhs_1 _ _).trans hk)
  have er : dot_S256x1024_S1024x2048_S256x2048_1_0_0_1_n_n.rhsIdx (ix2 r t) ((contrEquiv1 dot_S256x1024_S1024x2048_S256x2048_1_0_0_1_n_n 1024 rfl rfl).symm k) = ix2 k t := funext fun a => Fin.ext (by
    match a with
    | ⟨0, _⟩ => exact (matmul_qk_rhs_0 _ _).trans hk
    | ⟨1, _⟩ => exact matmul_qk_rhs_1 _ _)
  rw [el, er]

theorem matmul_av_lhs_0 (i : S256x1024.Idx) (q : dot_S256x2048_S2048x1024_S256x1024_1_0_0_1_n_n.contr.Idx) : (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem matmul_av_lhs_1 (i : S256x1024.Idx) (q : dot_S256x2048_S2048x1024_S256x1024_1_0_0_1_n_n.contr.Idx) : (dot_S256x2048_S2048x1024_S256x1024_1_0_0_1_n_n.lhsIdx i q 1).val = (q ⟨0, by decide⟩).val :=
  dot_S256x2048_S2048x1024_S256x1024_1_0_0_1_n_n.lhsIdx_val_of_single rfl i q
theorem matmul_av_rhs_0 (i : S256x1024.Idx) (q : dot_S256x2048_S2048x1024_S256x1024_1_0_0_1_n_n.contr.Idx) : (dot_S256x2048_S2048x1024_S256x1024_1_0_0_1_n_n.rhsIdx i q 0).val = (q ⟨0, by decide⟩).val :=
  dot_S256x2048_S2048x1024_S256x1024_1_0_0_1_n_n.rhsIdx_val_of_single rfl i q
theorem matmul_av_rhs_1 (i : S256x1024.Idx) (q : dot_S256x2048_S2048x1024_S256x1024_1_0_0_1_n_n.contr.Idx) : (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- The weights-by-values product at `(r, e)`: the sum over the 2048 key rows of row `r` of the weights against column `e` of the values. -/
theorem matmul_av_apply (lhs : FVec Ideal S256x2048 .bf16) (rhs : FVec Ideal S2048x1024 .bf16) (r : Fin 256) (e : Fin 1024) :
    matmul dot_S256x2048_S2048x1024_S256x1024_1_0_0_1_n_n none lhs rhs (constant (F := Ideal) S256x1024 .f32 0x00000000#32) (ix2 r e)
      = ∑ k : Fin 2048, lhs (ix2 r k) * rhs (ix2 k e) := by
  refine (Ideal.matmul_constant_zero_apply dot_S256x2048_S2048x1024_S256x1024_1_0_0_1_n_n none lhs rhs (ix2 r e)).trans ?_
  rw [← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 r e) ((contrEquiv1 dot_S256x2048_S2048x1024_S256x1024_1_0_0_1_n_n 2048 rfl rfl).symm k) = ix2 r k := funext fun a => Fin.ext (by
    match a with
    | ⟨0, _⟩ => exact matmul_av_lhs_0 _ _
    | ⟨1, _⟩ => exact (matmul_av_lhs_1 _ _).trans hk)
  have er : dot_S256x2048_S2048x1024_S256x1024_1_0_0_1_n_n.rhsIdx (ix2 r e) ((contrEquiv1 dot_S256x2048_S2048x1024_S256x1024_1_0_0_1_n_n 2048 rfl rfl).symm k) = ix2 k e := funext fun a => Fin.ext (by
    match a with
    | ⟨0, _⟩ => exact (matmul_av_rhs_0 _ _).trans hk
    | ⟨1, _⟩ => exact matmul_av_rhs_1 _ _)
  rw [el, er]

end Cert.KernelIdeal.Attn

end
-- ==== Proof.AttnBlock.lean ====
/- The attention block's two stored values at an index: the weights of a block of 256 query rows against the 2048 key
   rows of its batch (scaled scores, shifted by the row's supremum, exponentiated, normalised by the row's sum), and
   the weighted sums of the value rows. -/
import proofs.«157808_j62268435858121_2_alg».proof.Proof.AttnLayout

noncomputable section

open scoped BigOperators

namespace Cert.KernelIdeal.Attn

open Idealize.ShloMosaic Idealize.ShloMosaic.ValueIdx Idealize.ShloMosaic.TcCoe Idealize.SL.Sem
open Cert.KernelIdeal Cert.KernelIdeal.Gen

/-! ## The block computation, index by index

For a block of 256 query rows `x0` and the 2048 key rows `x1` and value rows `x2` of the same batch: the scaled scores, their
exponentials shifted by the row's supremum, the weights and the weighted sums of value rows. -/

/-- The score of the block's query row `r` against key row `t`. -/
def bscore (x0 : S1x256x1024.Idx → EReal) (x1 : S1x2048x1024.Idx → EReal) (r : Fin 256) (t : Fin 2048) : EReal :=
  (∑ e : Fin 1024, x0 (ix3 (0 : Fin 1) r e) * x1 (ix3 (0 : Fin 1) t e)) * AttnSpec.scale

/-- Its exponential, shifted by the supremum of row `r`'s scores. -/
def bexpo (x0 : S1x256x1024.Idx → EReal) (x1 : S1x2048x1024.Idx → EReal) (r : Fin 256) (t : Fin 2048) : EReal :=
  Ideal.exp (bscore x0 x1 r t - Finset.univ.sup (fun u : Fin 2048 => bscore x0 x1 r u))

/-- The weight: the shifted exponential over the sum of row `r`'s. -/
def battn (x0 : S1x256x1024.Idx → EReal) (x1 : S1x2048x1024.Idx → EReal) (r : Fin 256) (t : Fin 2048) : EReal :=
  Ideal.div (bexpo x0 x1 r t) (∑ u : Fin 2048, bexpo x0 x1 r u)

/-- The output: row `r`'s weights applied to the value rows at feature `e`. -/
def boutp (x0 : S1x256x1024.Idx → EReal) (x1 x2 : S1x2048x1024.Idx → EReal) (r : Fin 256) (e : Fin 1024) : EReal :=
  ∑ t : Fin 2048, battn x0 x1 r t * x2 (ix3 (0 : Fin 1) t e)

/-- The scaled scores of the block as the kernel forms them: query rows times transposed key rows, times the scale. -/
def sc (x0 : Vec Ideal S1x256x1024 .bf16) (x1 : Vec Ideal S1x2048x1024 .bf16) : FVec Ideal S256x2048 .f32 :=
  mulf (matmul dot_S256x1024_S1024x2048_S256x2048_1_0_0_1_n_n none
      (shapeCast S256x1024 x0 shapeCasts_S1x256x1024_S256x1024 : FVec Ideal S256x1024 .bf16)
      (transpose S1024x2048 [1, 0] (shapeCast S2048x1024 x1 shapeCasts_S1x2048x1024_S2048x1024 : FVec Ideal S2048x1024 .bf16) transposes_S2048x1024_p1_0_S1024x2048 : FVec Ideal S1024x2048 .bf16)
      (constant (F := Ideal) S256x2048 .f32 0x00000000#32))
    (broadcast S256x2048 (Scalar.ofBits (F := Ideal) .f32 0x3D000000#32))

/-- Every row's maximum, spread over its row. -/
def maxcol (v : FVec Ideal S256x2048 .f32) : FVec Ideal S256x2048 .f32 :=
  broadcastTo S256x2048 (shapeCast S256x1 (multiReduction (F := Ideal) .maximumf [1] S256 v 0xFF800000#32 reduces_S256x2048_S256 (.inl rfl) rfl) shapeCasts_S256_S256x1) broadcasts_S256x1_S256x2048

/-- Every row's sum, spread over its row. -/
def sumcol (v : FVec Ideal S256x2048 .f32) : FVec Ideal S256x2048 .f32 :=
  broadcastTo S256x2048 (shapeCast S256x1 (multiReduction (F := Ideal) .add [1] S256 v 0x00000000#32 reduces_S256x2048_S256 (.inl rfl) rfl) shapeCasts_S256_S256x1) broadcasts_S256x1_S256x2048

/-- The shifted exponentials of the block. -/
def ex (x0 : Vec Ideal S1x256x1024 .bf16) (x1 : Vec Ideal S1x2048x1024 .bf16) : FVec Ideal S256x2048 .f32 :=
  exp (subf (sc x0 x1) (maxcol (sc x0 x1)))

/-- The kernel's weights are the shifted exponentials divided by their rows' sums. -/
theorem pay1_eq (x0 : Vec Ideal S1x256x1024 .bf16) (x1 : Vec Ideal S1x2048x1024 .bf16) :
    k2_pay1 (F := Ideal) x0 x1 = divf (ex x0 x1) (sumcol (ex x0 x1)) := rfl

theorem sc_apply (x0 : Vec Ideal S1x256x1024 .bf16) (x1 : Vec Ideal S1x2048x1024 .bf16) (r : Fin 256) (t : Fin 2048) :
    sc x0 x1 (ix2 r t) = bscore x0 x1 r t := by
  unfold sc bscore
  refine congrArg (· * AttnSpec.scale) ?_
  refine (matmul_qk_apply _ _ r t).trans ?_
  refine Finset.sum_congr rfl fun k _ => ?_
  exact congrArg₂ (· * ·) (shapeCast_1ab_ab_apply x0 _ r k)
    ((transpose_ix2_apply _ _ k t).trans (shapeCast_1ab_ab_apply x1 _ t k))

theorem maxcol_apply (v : FVec Ideal S256x2048 .f32) (r : Fin 256) (t : Fin 2048) :
    maxcol v (ix2 r t) = Finset.univ.sup (fun u : Fin 2048 => v (ix2 r u)) :=
  rowmax_spread v (.inl rfl) rfl r t

theorem sumcol_apply (v : FVec Ideal S256x2048 .f32) (r : Fin 256) (t : Fin 2048) :
    sumcol v (ix2 r t) = ∑ u : Fin 2048, v (ix2 r u) :=
  rowsum_spread v (.inl rfl) rfl r t

theorem ex_apply (x0 : Vec Ideal S1x256x1024 .bf16) (x1 : Vec Ideal S1x2048x1024 .bf16) (r : Fin 256) (t : Fin 2048) :
    ex x0 x1 (ix2 r t) = bexpo x0 x1 r t := by
  show Ideal.exp (sc x0 x1 (ix2 r t) - maxcol (sc x0 x1) (ix2 r t)) = _
  rw [maxcol_apply, sc_apply]
  simp only [sc_apply]
  rfl

/-- THE WEIGHTS AT AN INDEX. -/
theorem pay1_apply (x0 : Vec Ideal S1x256x1024 .bf16) (x1 : Vec Ideal S1x2048x1024 .bf16) (r : Fin 256) (t : Fin 2048) :
    k2_pay1 (F := Ideal) x0 x1 (ix2 r t) = battn x0 x1 r t := by
  rw [pay1_eq]
  show Ideal.div (ex x0 x1 (ix2 r t)) (sumcol (ex x0 x1) (ix2 r t)) = _
  rw [sumcol_apply, ex_apply]
  simp only [ex_apply]
  rfl

/-- The stored weights block at `(u, r, t)`. -/
theorem pay2_apply (x0 : Vec Ideal S1x256x1024 .bf16) (x1 : Vec Ideal S1x2048x1024 .bf16) (u : Fin 1) (r : Fin 256) (t : Fin 2048) :
    k2_pay2 (F := Ideal) x0 x1 (ix3 u r t) = battn x0 x1 r t := by
  unfold k2_pay2
  exact (shapeCast_ab_1ab_apply _ _ u r t).trans (pay1_apply x0 x1 r t)

/-- The stored output block at `(u, r, e)`. -/
theorem pay3_apply (x0 : Vec Ideal S1x256x1024 .bf16) (x1 x2 : Vec Ideal S1x2048x1024 .bf16) (u : Fin 1) (r : Fin 256) (e : Fin 1024) :
    k2_pay3 (F := Ideal) x0 x1 x2 (ix3 u r e) = boutp x0 x1 x2 r e := by
  unfold k2_pay3
  refine (shapeCast_ab_1ab_apply _ _ u r e).trans ?_
  refine (matmul_av_apply _ _ r e).trans ?_
  refine Finset.sum_congr rfl fun k _ => ?_
  exact congrArg₂ (· * ·) (pay1_apply x0 x1 r k) (shapeCast_1ab_ab_apply x2 _ k e)

end Cert.KernelIdeal.Attn

end
-- ==== Proof.Attn.lean ====
/- The attention region's two result arrays, index by index: every grid point (batch b, tile q of 256 query rows) writes
   back its block of the weights and of the outputs; a block's row r is row q·256 + r of batch b, the key and value blocks
   are the whole of batch b, and the 32 blocks tile each array. -/
import proofs.«157808_j62268435858121_2_alg».proof.Proof.Gen.KernelIdeal.Frame
import proofs.«157808_j62268435858121_2_alg».proof.Proof.AttnBlock

set_option maxRecDepth 16384

noncomputable section

open scoped BigOperators

namespace Cert.KernelIdeal.Attn

open Idealize.ShloMosaic Idealize.ShloMosaic.ValueIdx Idealize.ShloMosaic.TcCoe Idealize.SL.Sem
open Idealize.ShloMosaic.Pipeline (Dat)
open Cert.KernelIdeal Cert.KernelIdeal.Gen

/-! ## A block's values are the arrays' -/

/-- Row `r` of tile `q` is row `q·256 + r` of its batch. -/
def rowOf (q : Fin 8) (r : Fin 256) : Fin 2048 := ⟨q.val * 256 + r.val, by have := q.isLt; have := r.isLt; omega⟩

section Math
variable (Q K W : (⟨3, ![4, 2048, 1024]⟩ : Shape).Idx → EReal)
  (x0 : S1x256x1024.Idx → EReal) (x1 x2 : S1x2048x1024.Idx → EReal) (b : Fin 4) (q : Fin 8)

/-- When the query block is rows `q·256 …` of batch `b` and the key block is batch `b`, the block's scores are the arrays'. -/
theorem bscore_eq (h0 : ∀ r e, x0 (ix3 (0 : Fin 1) r e) = Q (ix3 b (rowOf q r) e)) (h1 : ∀ t e, x1 (ix3 (0 : Fin 1) t e) = K (ix3 b t e))
    (r : Fin 256) (t : Fin 2048) : bscore x0 x1 r t = AttnSpec.score Q K b (rowOf q r) t := by
  unfold bscore AttnSpec.score
  exact congrArg (· * AttnSpec.scale) (Finset.sum_congr rfl fun e _ => by rw [h0, h1])

/-- … and so are its weights … -/
theorem battn_eq (h0 : ∀ r e, x0 (ix3 (0 : Fin 1) r e) = Q (ix3 b (rowOf q r) e)) (h1 : ∀ t e, x1 (ix3 (0 : Fin 1) t e) = K (ix3 b t e))
    (r : Fin 256) (t : Fin 2048) : battn x0 x1 r t = AttnSpec.attn Q K b (rowOf q r) t := by
  unfold battn AttnSpec.attn bexpo AttnSpec.expo AttnSpec.rowMax
  simp only [bscore_eq Q K x0 x1 b q h0 h1]

/-- … and, the value block being batch `b` too, its outputs. -/
theorem boutp_eq (h0 : ∀ r e, x0 (ix3 (0 : Fin 1) r e) = Q (ix3 b (rowOf q r) e)) (h1 : ∀ t e, x1 (ix3 (0 : Fin 1) t e) = K (ix3 b t e))
    (h2 : ∀ t e, x2 (ix3 (0 : Fin 1) t e) = W (ix3 b t e)) (r : Fin 256) (e : Fin 1024) :
    boutp x0 x1 x2 r e = AttnSpec.outp Q K W b (rowOf q r) e := by
  unfold boutp AttnSpec.outp
  exact Finset.sum_congr rfl fun t _ => by rw [battn_eq Q K x0 x1 b q h0 h1, h2]

end Math

/-! ## The grid's index maps -/

theorem zero_offsets3 : (![0, 0, 0] : Fin 3 → Nat) = fun _ => 0 := funext fun a => by fin_cases a <;> rfl

/-- The block indices at point `t` of the 4 × 8 grid: batch `t / 8` for every window, tile `t % 8` for the query, output and
    weights windows, the whole batch for the key and value windows. -/
theorem point_index_maps : ∀ t : Fin cfg2.N,
    win2_0.index t (0 : Fin 3) = t.val / 8 ∧ win2_0.index t (1 : Fin 3) = t.val % 8 ∧ win2_0.index t (2 : Fin 3) = 0
    ∧ win2_1.index t (0 : Fin 3) = t.val / 8 ∧ win2_1.index t (1 : Fin 3) = 0 ∧ win2_1.index t (2 : Fin 3) = 0
    ∧ win2_2.index t (0 : Fin 3) = t.val / 8 ∧ win2_2.index t (1 : Fin 3) = 0 ∧ win2_2.index t (2 : Fin 3) = 0
    ∧ win2_3.index t (0 : Fin 3) = t.val / 8 ∧ win2_3.index t (1 : Fin 3) = t.val % 8 ∧ win2_3.index t (2 : Fin 3) = 0
    ∧ win2_4.index t (0 : Fin 3) = t.val / 8 ∧ win2_4.index t (1 : Fin 3) = t.val % 8 ∧ win2_4.index t (2 : Fin 3) = 0 :=
  (by decide +kernel : ∀ t : Fin grid2.N, _)

theorem N2 : cfg2.N = 32 := N_2

section Blocks
variable (V : (c : Dev nD) → (b : Ref sig .tc) → Buf (Elt Ideal) ((c : Thread nD τ).loc b))

/-- The query block at point `t`: its row `r` is row `(t % 8)·256 + r` of batch `t / 8`. -/
theorem iblk0_apply (c : Dev nD) (t : Fin cfg2.N) (u : Fin 1) (r : Fin 256) (e : Fin 1024) (b : Fin 4) (s : Fin 2048)
    (hb : b.val = t.val / 8) (hs : s.val = t.val % 8 * 256 + r.val) :
    (iblk2 V c 0 t : Vec Ideal S1x256x1024 .bf16) (ix3 u r e) = (V c main_v5 : S4x2048x1024.Idx → EReal) (ix3 b s e) := by
  obtain ⟨e0, e1, e2, -⟩ := point_index_maps t
  unfold iblk2
  rw [View.read_apply]
  show (V c main_v5 : S4x2048x1024.Idx → EReal) (((cfg2.win 0).blk t).view.emb (ix3 u r e)) = _
  refine congrArg (V c main_v5 : S4x2048x1024.Idx → EReal) (funext fun a => Fin.ext ?_)
  have hu : u.val = 0 := by omega
  match a with
  | ⟨0, _⟩ => show win2_0.index t (0 : Fin 3) * 1 + 1 * u.val = b.val; rw [e0, hb, hu]; omega
  | ⟨1, _⟩ => show win2_0.index t (1 : Fin 3) * 256 + 1 * r.val = s.val; rw [e1, hs]; omega
  | ⟨2, _⟩ => show win2_0.index t (2 : Fin 3) * 1024 + 1 * e.val = e.val; rw [e2]; omega

/-- The key block at point `t` is batch `t / 8`. -/
theorem iblk1_apply (c : Dev nD) (t : Fin cfg2.N) (u : Fin 1) (k : Fin 2048) (e : Fin 1024) (b : Fin 4)
    (hb : b.val = t.val / 8) :
    (iblk2 V c 1 t : Vec Ideal S1x2048x1024 .bf16) (ix3 u k e) = (V c main_v11 : S4x2048x1024.Idx → EReal) (ix3 b k e) := by
  obtain ⟨-, -, -, e0, e1, e2, -⟩ := point_index_maps t
  unfold iblk2
  rw [View.read_apply]
  show (V c main_v11 : S4x2048x1024.Idx → EReal) (((cfg2.win 1).blk t).view.emb (ix3 u k e)) = _
  refine congrArg (V c main_v11 : S4x2048x1024.Idx → EReal) (funext fun a => Fin.ext ?_)
  have hu : u.val = 0 := by omega
  match a with
  | ⟨0, _⟩ => show win2_1.index t (0 : Fin 3) * 1 + 1 * u.val = b.val; rw [e0, hb, hu]; omega
  | ⟨1, _⟩ => show win2_1.index t (1 : Fin 3) * 2048 + 1 * k.val = k.val; rw [e1]; omega
  | ⟨2, _⟩ => show win2_1.index t (2 : Fin 3) * 1024 + 1 * e.val = e.val; rw [e2]; omega

/-- The value block at point `t` is batch `t / 8`. -/
theorem iblk2_apply (c : Dev nD) (t : Fin cfg2.N) (u : Fin 1) (k : Fin 2048) (e : Fin 1024) (b : Fin 4)
    (hb : b.val = t.val / 8) :
    (iblk2 V c 2 t : Vec Ideal S1x2048x1024 .bf16) (ix3 u k e) = (V c main_v12 : S4x2048x1024.Idx → EReal) (ix3 b k e) := by
  obtain ⟨-, -, -, -, -, -, e0, e1, e2, -⟩ := point_index_maps t
  unfold iblk2
  rw [View.read_apply]
  show (V c main_v12 : S4x2048x1024.Idx → EReal) (((cfg2.win 2).blk t).view.emb (ix3 u k e)) = _
  refine congrArg (V c main_v12 : S4x2048x1024.Idx → EReal) (funext fun a => Fin.ext ?_)
  have hu : u.val = 0 := by omega
  match a with
  | ⟨0, _⟩ => show win2_2.index t (0 : Fin 3) * 1 + 1 * u.val = b.val; rw [e0, hb, hu]; omega
  | ⟨1, _⟩ => show win2_2.index t (1 : Fin 3) * 2048 + 1 * k.val = k.val; rw [e1]; omega
  | ⟨2, _⟩ => show win2_2.index t (2 : Fin 3) * 1024 + 1 * e.val = e.val; rw [e2]; omega

end Blocks

/-! ## The two result arrays as functions of the query, key and value arrays -/

/-- The weights array: at `(b, s, t)` the weight of key row `t` for query row `s` of batch `b`. -/
def GW (Q K : (⟨3, ![4, 2048, 1024]⟩ : Shape).Idx → EReal) : (⟨3, ![4, 2048, 2048]⟩ : Shape).Idx → EReal :=
  fun i => AttnSpec.attn Q K (i 0) (i 1) (i 2)

/-- The output array: at `(b, s, e)` the weighted sum of the value rows of batch `b` at feature `e`. -/
def GO (Q K W : (⟨3, ![4, 2048, 1024]⟩ : Shape).Idx → EReal) : (⟨3, ![4, 2048, 1024]⟩ : Shape).Idx → EReal :=
  fun i => AttnSpec.outp Q K W (i 0) (i 1) (i 2)

section Arrays
variable (V : (c : Dev nD) → (b : Ref sig .tc) → Buf (Elt Ideal) ((c : Thread nD τ).loc b))

/-- WHAT POINT `t` WRITES BACK to the weights array is block `t` of `GW` of the query and key arrays. -/
theorem weights_tile_written_back (c : Dev nD) (t : Fin cfg2.N) :
    (dat2 (F := Ideal) V c).flushed 4 t = ((cfg2.win 4).blk t).view.read (Elt Ideal) (GW (V c main_v5) (V c main_v11)) := by
  show (cfg2.win 4).cut (grid2.coords t) ((dat2 V c).after 4 t) = _
  rw [after2_4]
  unfold out2_4
  rw [View.canon_unit_zero zero_offsets3]
  simp only [View.ld_unit_zero (S := S1x256x1024) zero_offsets3, View.ld_unit_zero (S := S1x2048x1024) zero_offsets3]
  funext y
  rw [View.read_apply]
  obtain ⟨-, -, -, -, -, -, -, -, -, -, -, -, f0, f1, f2⟩ := point_index_maps t
  have ht : t.val < 32 := N2 ▸ t.isLt
  obtain ⟨b, hb⟩ : ∃ b : Fin 4, b.val = t.val / 8 := ⟨⟨t.val / 8, by omega⟩, rfl⟩
  obtain ⟨q, hq⟩ : ∃ q : Fin 8, q.val = t.val % 8 := ⟨⟨t.val % 8, by omega⟩, rfl⟩
  obtain ⟨u, hu⟩ : ∃ u : Fin 1, u.val = (y 0).val := ⟨⟨(y 0).val, (y 0).isLt⟩, rfl⟩
  obtain ⟨r, hr⟩ : ∃ r : Fin 256, r.val = (y 1).val := ⟨⟨(y 1).val, (y 1).isLt⟩, rfl⟩
  obtain ⟨k, hk⟩ : ∃ k : Fin 2048, k.val = (y 2).val := ⟨⟨(y 2).val, (y 2).isLt⟩, rfl⟩
  have hx : ((cfg2.win 4).xinj (grid2.coords t) y : S1x256x2048.Idx) = ix3 u r k := funext fun a => Fin.ext (by
    match a with
    | ⟨0, _⟩ => exact hu.symm
    | ⟨1, _⟩ => exact hr.symm
    | ⟨2, _⟩ => exact hk.symm)
  have he : (((cfg2.win 4).blk t).view.emb y : S4x2048x2048.Idx) = ix3 b (rowOf q r) k := funext fun a => Fin.ext (by
    have hu0 : u.val = 0 := by omega
    match a with
    | ⟨0, _⟩ => show win2_4.index t (0 : Fin 3) * 1 + 1 * (y 0).val = b.val; rw [f0, hb, ← hu, hu0]; omega
    | ⟨1, _⟩ => show win2_4.index t (1 : Fin 3) * 256 + 1 * (y 1).val = q.val * 256 + r.val; rw [f1, hq, hr]; omega
    | ⟨2, _⟩ => show win2_4.index t (2 : Fin 3) * 2048 + 1 * (y 2).val = k.val; rw [f2, hk]; omega)
  show k2_pay2 (F := Ideal) (iblk2 V c 0 t) (iblk2 V c 1 t) ((cfg2.win 4).xinj (grid2.coords t) y)
    = GW (V c main_v5) (V c main_v11) (((cfg2.win 4).blk t).view.emb y)
  rw [hx, he]
  refine (pay2_apply _ _ u r k).trans ?_
  exact battn_eq (V c main_v5) (V c main_v11) _ _ b q
    (fun r' e => iblk0_apply V c t 0 r' e b (rowOf q r') hb (by show q.val * 256 + r'.val = _; rw [hq]))
    (fun k' e => iblk1_apply V c t 0 k' e b hb) r k

/-- WHAT POINT `t` WRITES BACK to the output array is block `t` of `GO` of the query, key and value arrays. -/
theorem output_tile_written_back (c : Dev nD) (t : Fin cfg2.N) :
    (dat2 (F := Ideal) V c).flushed 3 t = ((cfg2.win 3).blk t).view.read (Elt Ideal) (GO (V c main_v5) (V c main_v11) (V c main_v12)) := by
  show (cfg2.win 3).cut (grid2.coords t) ((dat2 V c).after 3 t) = _
  rw [after2_3]
  unfold out2_3
  rw [View.canon_unit_zero zero_offsets3]
  simp only [View.ld_unit_zero (S := S1x256x1024) zero_offsets3, View.ld_unit_zero (S := S1x2048x1024) zero_offsets3]
  funext y
  rw [View.read_apply]
  obtain ⟨-, -, -, -, -, -, -, -, -, f0, f1, f2, -⟩ := point_index_maps t
  have ht : t.val < 32 := N2 ▸ t.isLt
  obtain ⟨b, hb⟩ : ∃ b : Fin 4, b.val = t.val / 8 := ⟨⟨t.val / 8, by omega⟩, rfl⟩
  obtain ⟨q, hq⟩ : ∃ q : Fin 8, q.val = t.val % 8 := ⟨⟨t.val % 8, by omega⟩, rfl⟩
  obtain ⟨u, hu⟩ : ∃ u : Fin 1, u.val = (y 0).val := ⟨⟨(y 0).val, (y 0).isLt⟩, rfl⟩
  obtain ⟨r, hr⟩ : ∃ r : Fin 256, r.val = (y 1).val := ⟨⟨(y 1).val, (y 1).isLt⟩, rfl⟩
  obtain ⟨e, he'⟩ : ∃ e : Fin 1024, e.val = (y 2).val := ⟨⟨(y 2).val, (y 2).isLt⟩, rfl⟩
  have hx : ((cfg2.win 3).xinj (grid2.coords t) y : S1x256x1024.Idx) = ix3 u r e := funext fun a => Fin.ext (by
    match a with
    | ⟨0, _⟩ => exact hu.symm
    | ⟨1, _⟩ => exact hr.symm
    | ⟨2, _⟩ => exact he'.symm)
  have he : (((cfg2.win 3).blk t).view.emb y : S4x2048x1024.Idx) = ix3 b (rowOf q r) e := funext fun a => Fin.ext (by
    have hu0 : u.val = 0 := by omega
    match a with
    | ⟨0, _⟩ => show win2_3.index t (0 : Fin 3) * 1 + 1 * (y 0).val = b.val; rw [f0, hb, ← hu, hu0]; omega
    | ⟨1, _⟩ => show win2_3.index t (1 : Fin 3) * 256 + 1 * (y 1).val = q.val * 256 + r.val; rw [f1, hq, hr]; omega
    | ⟨2, _⟩ => show win2_3.index t (2 : Fin 3) * 1024 + 1 * (y 2).val = e.val; rw [f2, he']; omega)
  show k2_pay3 (F := Ideal) (iblk2 V c 0 t) (iblk2 V c 1 t) (iblk2 V c 2 t) ((cfg2.win 3).xinj (grid2.coords t) y)
    = GO (V c main_v5) (V c main_v11) (V c main_v12) (((cfg2.win 3).blk t).view.emb y)
  rw [hx, he]
  refine (pay3_apply _ _ _ u r e).trans ?_
  exact boutp_eq (V c main_v5) (V c main_v11) (V c main_v12) _ _ _ b q
    (fun r' e => iblk0_apply V c t 0 r' e b (rowOf q r') hb (by show q.val * 256 + r'.val = _; rw [hq]))
    (fun k' e => iblk1_apply V c t 0 k' e b hb) (fun k' e => iblk2_apply V c t 0 k' e b hb) r e

/-- Every index of the weights array is in the block of the point of its batch and its row's tile. -/
theorem weights_tiles_cover (i : S4x2048x2048.Idx) : ∃ t : Fin cfg2.N, (cfg2.win 4).flush t = true ∧ i ∈ ((cfg2.win 4).blk t).view.set := by
  have h0 : (i 0).val < 4 := (i 0).isLt
  have h1 : (i 1).val < 2048 := (i 1).isLt
  have h2 : (i 2).val < 2048 := (i 2).isLt
  obtain ⟨t, htv⟩ : ∃ t : Fin cfg2.N, t.val = (i 0).val * 8 + (i 1).val / 256 :=
    ⟨⟨(i 0).val * 8 + (i 1).val / 256, by rw [N2]; omega⟩, rfl⟩
  obtain ⟨-, -, -, -, -, -, -, -, -, -, -, -, f0, f1, f2⟩ := point_index_maps t
  refine ⟨t, flush2_4 t, ?_⟩
  show i ∈ ((View.whole main_v13_1).slice (win2_4.rect t)).set
  rw [View.set_slice_whole, Rect.mem_set_unit]
  intro a
  match a with
  | ⟨0, _⟩ => show win2_4.index t (0 : Fin 3) * 1 ≤ (i 0).val ∧ (i 0).val < win2_4.index t (0 : Fin 3) * 1 + 1; rw [f0, htv]; omega
  | ⟨1, _⟩ => show win2_4.index t (1 : Fin 3) * 256 ≤ (i 1).val ∧ (i 1).val < win2_4.index t (1 : Fin 3) * 256 + 256; rw [f1, htv]; omega
  | ⟨2, _⟩ => show win2_4.index t (2 : Fin 3) * 2048 ≤ (i 2).val ∧ (i 2).val < win2_4.index t (2 : Fin 3) * 2048 + 2048; rw [f2]; omega

/-- Every index of the output array is in the block of the point of its batch and its row's tile. -/
theorem output_tiles_cover (i : S4x2048x1024.Idx) : ∃ t : Fin cfg2.N, (cfg2.win 3).flush t = true ∧ i ∈ ((cfg2.win 3).blk t).view.set := by
  have h0 : (i 0).val < 4 := (i 0).isLt
  have h1 : (i 1).val < 2048 := (i 1).isLt
  have h2 : (i 2).val < 1024 := (i 2).isLt
  obtain ⟨t, htv⟩ : ∃ t : Fin cfg2.N, t.val = (i 0).val * 8 + (i 1).val / 256 :=
    ⟨⟨(i 0).val * 8 + (i 1).val / 256, by rw [N2]; omega⟩, rfl⟩
  obtain ⟨-, -, -, -, -, -, -, -, -, f0, f1, f2, -⟩ := point_index_maps t
  refine ⟨t, flush2_3 t, ?_⟩
  show i ∈ ((View.whole main_v13_0).slice (win2_3.rect t)).set
  rw [View.set_slice_whole, Rect.mem_set_unit]
  intro a
  match a with
  | ⟨0, _⟩ => show win2_3.index t (0 : Fin 3) * 1 ≤ (i 0).val ∧ (i 0).val < win2_3.index t (0 : Fin 3) * 1 + 1; rw [f0, htv]; omega
  | ⟨1, _⟩ => show win2_3.index t (1 : Fin 3) * 256 ≤ (i 1).val ∧ (i 1).val < win2_3.index t (1 : Fin 3) * 256 + 256; rw [f1, htv]; omega
  | ⟨2, _⟩ => show win2_3.index t (2 : Fin 3) * 1024 ≤ (i 2).val ∧ (i 2).val < win2_3.index t (2 : Fin 3) * 1024 + 1024; rw [f2]; omega

/-- The weights array after the region. -/
theorem weights_array (c : Dev nD) : (dat2 (F := Ideal) V c).arrAt 4 cfg2.N = GW (V c main_v5) (V c main_v11) :=
  (dat2 (F := Ideal) V c).arrAt_eq_of_cover 4 (GW (V c main_v5) (V c main_v11)) (fun t _ => weights_tile_written_back V c t) weights_tiles_cover

/-- The output array after the region. -/
theorem output_array (c : Dev nD) : (dat2 (F := Ideal) V c).arrAt 3 cfg2.N = GO (V c main_v5) (V c main_v11) (V c main_v12) :=
  (dat2 (F := Ideal) V c).arrAt_eq_of_cover 3 (GO (V c main_v5) (V c main_v11) (V c main_v12)) (fun t _ => output_tile_written_back V c t) output_tiles_cover

/-- THE WEIGHTS ARRAY AT AN INDEX. -/
theorem attn_apply (c : Dev nD) (b : Fin 4) (s t : Fin 2048) :
    (dat2 (F := Ideal) V c).arrAt 4 cfg2.N (ix3 b s t) = AttnSpec.attn (V c main_v5) (V c main_v11) b s t := by
  rw [weights_array]; rfl

/-- THE OUTPUT ARRAY AT AN INDEX. -/
theorem out_apply (c : Dev nD) (b : Fin 4) (s : Fin 2048) (e : Fin 1024) :
    (dat2 (F := Ideal) V c).arrAt 3 cfg2.N (ix3 b s e) = AttnSpec.outp (V c main_v5) (V c main_v11) (V c main_v12) b s e := by
  rw [output_array]; rfl

end Arrays

end Cert.KernelIdeal.Attn

end
-- ==== Proof.RefAttn.lean ====
/-
  The reference's attention stages, read at an index, are the attention layer's mathematics.

  With Q and K the projected queries and keys (the reference's own projection stages), the reference divides the
  inner products by the square root of 1024, which is 32, and dividing an extended real by 32 is multiplying it by
  1/32, the value of the kernel's scale word. Its row maximum is a maximum-reduce started from -∞ and then joined
  once more with -∞, the bottom of the lattice: a supremum. The shifted exponentials, their row sums started from 0,
  the quotient and the weighted sum of the value rows then read off operation by operation.
-/
import proofs.«157808_j62268435858121_2_alg».proof.Proof.Gen.ReferenceIdeal.Read
import proofs.«157808_j62268435858121_2_alg».proof.Proof.AttnSpec
import Idealize.ShloMosaic.PureOps.Ideal.Laws
import Idealize.ShloMosaic.PureOps.Reduce

noncomputable section

open scoped BigOperators

namespace Cert.RefAttn

open Cert.ReferenceIdeal Cert.ReferenceIdeal.Gen Cert.ReferenceIdeal.Read Idealize.ShloMosaic Idealize.ShloMosaic.ValueIdx Cert.AttnSpec

/-! ## The literal words -/

/-- The word of 1024.0 denotes the real 1024. -/
theorem ofBits_1024 : Ideal.ofBits .f32 0x44800000#32 = ((1024 : ℝ) : EReal) := by
  simp [Ideal.ofBits, Ideal.ieee, -EReal.coe_mul]; norm_num

/-- The word of 2⁻⁵ denotes the real 1/32. -/
theorem ofBits_inv32 : Ideal.ofBits .f32 0x3D000000#32 = ((1 / 32 : ℝ) : EReal) := by
  simp [Ideal.ofBits, Ideal.ieee, -EReal.coe_mul]; norm_num

/-- The square root of 1024 is 32. -/
theorem sqrt_1024 : Ideal.sqrt ((1024 : ℝ) : EReal) = ((32 : ℝ) : EReal) := by
  show (if (1024 : ℝ) < 0 then (⊥ : EReal) else ((Real.sqrt 1024 : ℝ) : EReal)) = _
  rw [if_neg (by norm_num), show (1024 : ℝ) = 32 ^ 2 by norm_num, Real.sqrt_sq (by norm_num)]

/-- Dividing by the square root of the word 1024.0 is multiplying by the scale word. -/
theorem div_sqrt_eq_scale (x : EReal) :
    Ideal.div x (Ideal.sqrt (Ideal.ofBits .f32 0x44800000#32)) = x * scale := by
  rw [ofBits_1024, sqrt_1024, Ideal.div_coe (by norm_num : (32 : ℝ) ≠ 0), scale, ofBits_inv32]

/-! ## Indices -/

theorem lidx8 (b : Fin 4) (s t : Fin 2048) (k : Fin 1024) : lidx_main_v8 (ix3 b s t) k = ix3 b s k :=
  funext fun a => Fin.ext (by match a with | ⟨0, _⟩ => rfl | ⟨1, _⟩ => rfl | ⟨2, _⟩ => rfl)
theorem ridx8 (b : Fin 4) (s t : Fin 2048) (k : Fin 1024) : ridx_main_v8 (ix3 b s t) k = ix3 b t k :=
  funext fun a => Fin.ext (by match a with | ⟨0, _⟩ => rfl | ⟨1, _⟩ => rfl | ⟨2, _⟩ => rfl)
theorem idx19 (b : Fin 4) (s : Fin 2048) (k : Fin 2048) : idx_main_v19 (ix2 b s) k = ix3 b s k :=
  funext fun a => Fin.ext (by match a with | ⟨0, _⟩ => rfl | ⟨1, _⟩ => rfl | ⟨2, _⟩ => rfl)
theorem idx15_16 (b : Fin 4) (s t : Fin 2048) : idx_main_v15 (idx_main_v16 (ix3 b s t)) = ix2 b s :=
  funext fun a => Fin.ext (by match a with | ⟨0, _⟩ => rfl | ⟨1, _⟩ => rfl)
theorem idx20_21 (b : Fin 4) (s t : Fin 2048) : idx_main_v20 (idx_main_v21 (ix3 b s t)) = ix2 b s :=
  funext fun a => Fin.ext (by match a with | ⟨0, _⟩ => rfl | ⟨1, _⟩ => rfl)
theorem lidx23 (b : Fin 4) (s : Fin 2048) (e : Fin 1024) (k : Fin 2048) : lidx_main_v23 (ix3 b s e) k = ix3 b s k :=
  funext fun a => Fin.ext (by match a with | ⟨0, _⟩ => rfl | ⟨1, _⟩ => rfl | ⟨2, _⟩ => rfl)
theorem ridx23 (b : Fin 4) (s : Fin 2048) (e : Fin 1024) (k : Fin 2048) : ridx_main_v23 (ix3 b s e) k = ix3 b k e :=
  funext fun a => Fin.ext (by match a with | ⟨0, _⟩ => rfl | ⟨1, _⟩ => rfl | ⟨2, _⟩ => rfl)

variable (x0 x1 x2 : (⟨S4x2048x1024, .f32⟩ : BufTy).Contents (Elt Ideal)) (x3 : (⟨S1024x1024, .f32⟩ : BufTy).Contents (Elt Ideal))
  (x4 : (⟨S1024, .f32⟩ : BufTy).Contents (Elt Ideal)) (x5 : (⟨S1024x1024, .f32⟩ : BufTy).Contents (Elt Ideal))
  (x6 : (⟨S1024, .f32⟩ : BufTy).Contents (Elt Ideal))

/-! ## The scores -/

/-- The reference's scaled scores are the layer's scores of its projected queries and keys. -/
theorem score_eq (b : Fin 4) (s t : Fin 2048) :
    val_main_v11 (F := Ideal) x0 x1 x3 x4 x5 x6 (ix3 b s t)
      = score (val_main_v3 (F := Ideal) x0 x3 x4) (val_main_v7 (F := Ideal) x1 x5 x6) b s t := by
  rw [val_main_v11_apply, val_main_v8_apply, val_main_v10_apply, val_main_v9_apply, val_main_cst_apply]
  simp only [Ideal.hostDivf_def, Ideal.hostUnary_sqrt_def, Ideal.ofBits_def, div_sqrt_eq_scale, lidx8, ridx8]
  rfl

/-! ## The row maximum -/

theorem red : S4x2048x2048.Reduces [2] S4x2048 := by decide

/-- The reduced index with the key position put back. -/
theorem lift_eq (b : Fin 4) (s : Fin 2048) (k : Fin (S4x2048x2048.size 2)) :
    red.lift (ix2 b s) k = ix3 b s (⟨k.val, k.isLt⟩ : Fin 2048) := by
  funext c; apply Fin.ext
  fin_cases c <;> rfl

theorem rowMax_eq (b : Fin 4) (s : Fin 2048) :
    val_main_v14 (F := Ideal) x0 x1 x3 x4 x5 x6 (ix2 b s)
      = rowMax (val_main_v3 (F := Ideal) x0 x3 x4) (val_main_v7 (F := Ideal) x1 x5 x6) b s := by
  rw [val_main_v14_apply, val_main_v13_apply, val_main_cst_1_apply]
  unfold val_main_v12
  rw [Host.reduce_eq_fold_single FloatOps.maximumf _ _ reducesTo_S4x2048x2048_S4x2048_d2 red h_S_]
  -- the folded function is the row of scores
  have hf : (val_main_v11 (F := Ideal) x0 x1 x3 x4 x5 x6 ∘ red.lift (ix2 b s))
      = fun k : Fin 2048 => score (val_main_v3 (F := Ideal) x0 x3 x4) (val_main_v7 (F := Ideal) x1 x5 x6) b s k :=
    funext fun k => by
      show val_main_v11 (F := Ideal) x0 x1 x3 x4 x5 x6 (red.lift (ix2 b s) k) = _
      rw [lift_eq, score_eq]
      rfl
  rw [hf]
  show max (Ideal.ofBits .f32 0xFF800000#32) (Finset.fold max (Ideal.ofBits .f32 0xFF800000#32)
      (fun k : Fin 2048 => score (val_main_v3 (F := Ideal) x0 x3 x4) (val_main_v7 (F := Ideal) x1 x5 x6) b s k) Finset.univ) = _
  rw [ofBits_negInf_f32, fold_max_bot_eq_sup, max_eq_right bot_le]
  rfl

/-! ## The shifted exponentials, the weights, the output -/

theorem expo_eq (b : Fin 4) (s t : Fin 2048) :
    val_main_v18 (F := Ideal) x0 x1 x3 x4 x5 x6 (ix3 b s t)
      = expo (val_main_v3 (F := Ideal) x0 x3 x4) (val_main_v7 (F := Ideal) x1 x5 x6) b s t := by
  rw [val_main_v18_apply, val_main_v17_apply, val_main_v16_apply, val_main_v15_apply, idx15_16, rowMax_eq, score_eq]
  rfl

/-- The row sums start from the zero word, which adds nothing. -/
theorem rowSum_eq (b : Fin 4) (s : Fin 2048) :
    val_main_v19 (F := Ideal) x0 x1 x3 x4 x5 x6 (ix2 b s)
      = ∑ u : Fin 2048, expo (val_main_v3 (F := Ideal) x0 x3 x4) (val_main_v7 (F := Ideal) x1 x5 x6) b s u := by
  rw [val_main_v19_apply, val_main_cst_2_apply]
  simp only [Ideal.ofBits_def, Ideal.ofBits_zero_f32, zero_add, idx19, expo_eq]

theorem attn_eq (b : Fin 4) (s t : Fin 2048) :
    val_main_v22 (F := Ideal) x0 x1 x3 x4 x5 x6 (ix3 b s t)
      = attn (val_main_v3 (F := Ideal) x0 x3 x4) (val_main_v7 (F := Ideal) x1 x5 x6) b s t := by
  rw [val_main_v22_apply, val_main_v21_apply, val_main_v20_apply, idx20_21, rowSum_eq, expo_eq]
  rfl

theorem out_eq (b : Fin 4) (s : Fin 2048) (e : Fin 1024) :
    val_main_v23 (F := Ideal) x0 x1 x2 x3 x4 x5 x6 (ix3 b s e)
      = outp (val_main_v3 (F := Ideal) x0 x3 x4) (val_main_v7 (F := Ideal) x1 x5 x6) x2 b s e := by
  rw [val_main_v23_apply]
  simp only [lidx23, ridx23, attn_eq]
  rfl

end Cert.RefAttn

end
-- ==== Proof.RefLinear.lean ====
/-
  The reference's three linear stages read at an index: entry (b, s, e) of a projection is the inner product of input
  row (b, s) with row e of the weight matrix (the reference contracts the weight's SECOND axis, so no transpose
  appears), plus entry e of the bias, which two broadcasts spread over the batch and the positions.
-/
import proofs.«157808_j62268435858121_2_alg».proof.Proof.Gen.ReferenceIdeal.Read

noncomputable section

open scoped BigOperators

namespace Cert.RefLinear

open Cert.ReferenceIdeal Cert.ReferenceIdeal.Gen Cert.ReferenceIdeal.Read Idealize.ShloMosaic Idealize.ShloMosaic.ValueIdx

/-! ## Indices -/

theorem lidxQ (b : Fin 4) (s : Fin 2048) (e k : Fin 1024) : lidx_main_v0 (ix3 b s e) k = ix3 b s k :=
  funext fun a => Fin.ext (by match a with | ⟨0, _⟩ => rfl | ⟨1, _⟩ => rfl | ⟨2, _⟩ => rfl)
theorem ridxQ (b : Fin 4) (s : Fin 2048) (e k : Fin 1024) : ridx_main_v0 (ix3 b s e) k = ix2 e k :=
  funext fun a => Fin.ext (by match a with | ⟨0, _⟩ => rfl | ⟨1, _⟩ => rfl)
theorem bidxQ (b : Fin 4) (s : Fin 2048) (e : Fin 1024) : idx_main_v1 (idx_main_v2 (ix3 b s e)) = ix1 e :=
  funext fun a => Fin.ext (by match a with | ⟨0, _⟩ => rfl)

theorem lidxK (b : Fin 4) (s : Fin 2048) (e k : Fin 1024) : lidx_main_v4 (ix3 b s e) k = ix3 b s k :=
  funext fun a => Fin.ext (by match a with | ⟨0, _⟩ => rfl | ⟨1, _⟩ => rfl | ⟨2, _⟩ => rfl)
theorem ridxK (b : Fin 4) (s : Fin 2048) (e k : Fin 1024) : ridx_main_v4 (ix3 b s e) k = ix2 e k :=
  funext fun a => Fin.ext (by match a with | ⟨0, _⟩ => rfl | ⟨1, _⟩ => rfl)
theorem bidxK (b : Fin 4) (s : Fin 2048) (e : Fin 1024) : idx_main_v5 (idx_main_v6 (ix3 b s e)) = ix1 e :=
  funext fun a => Fin.ext (by match a with | ⟨0, _⟩ => rfl)

theorem lidxO (b : Fin 4) (s : Fin 2048) (e k : Fin 1024) : lidx_main_v26 (ix3 b s e) k = ix3 b s k :=
  funext fun a => Fin.ext (by match a with | ⟨0, _⟩ => rfl | ⟨1, _⟩ => rfl | ⟨2, _⟩ => rfl)
theorem ridxO (b : Fin 4) (s : Fin 2048) (e k : Fin 1024) : ridx_main_v26 (ix3 b s e) k = ix2 e k :=
  funext fun a => Fin.ext (by match a with | ⟨0, _⟩ => rfl | ⟨1, _⟩ => rfl)
theorem bidxO (b : Fin 4) (s : Fin 2048) (e : Fin 1024) : idx_main_v27 (idx_main_v28 (ix3 b s e)) = ix1 e :=
  funext fun a => Fin.ext (by match a with | ⟨0, _⟩ => rfl)

/-! ## The stages -/

/-- The projected queries. -/
theorem q_apply (x0 : (⟨S4x2048x1024, .f32⟩ : BufTy).Contents (Elt Ideal)) (x3 : (⟨S1024x1024, .f32⟩ : BufTy).Contents (Elt Ideal)) (x4 : (⟨S1024, .f32⟩ : BufTy).Contents (Elt Ideal)) (b : Fin 4) (s : Fin 2048) (e : Fin 1024) :
    val_main_v3 (F := Ideal) x0 x3 x4 (ix3 b s e) = (∑ k : Fin 1024, x0 (ix3 b s k) * x3 (ix2 e k)) + x4 (ix1 e) := by
  rw [val_main_v3_apply, val_main_v0_apply, val_main_v2_apply, val_main_v1_apply]
  simp only [lidxQ, ridxQ, bidxQ]
  rfl

/-- The projected keys. -/
theorem k_apply (x1 : (⟨S4x2048x1024, .f32⟩ : BufTy).Contents (Elt Ideal)) (x5 : (⟨S1024x1024, .f32⟩ : BufTy).Contents (Elt Ideal)) (x6 : (⟨S1024, .f32⟩ : BufTy).Contents (Elt Ideal)) (b : Fin 4) (s : Fin 2048) (e : Fin 1024) :
    val_main_v7 (F := Ideal) x1 x5 x6 (ix3 b s e) = (∑ k : Fin 1024, x1 (ix3 b s k) * x5 (ix2 e k)) + x6 (ix1 e) := by
  rw [val_main_v7_apply, val_main_v4_apply, val_main_v6_apply, val_main_v5_apply]
  simp only [lidxK, ridxK, bidxK]
  rfl

/-- The output projection, of the re-laid attention output. -/
theorem o_apply (x0 x1 x2 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal)) (b : Fin 4) (s : Fin 2048) (e : Fin 1024) :
    val_main_v29 (F := Ideal) x0 x1 x2 x3 x4 x5 x6 x7 x8 (ix3 b s e)
      = (∑ k : Fin 1024, val_main_v25 (F := Ideal) x0 x1 x2 x3 x4 x5 x6 (ix3 b s k) * x7 (ix2 e k)) + x8 (ix1 e) := by
  rw [val_main_v29_apply, val_main_v26_apply, val_main_v28_apply, val_main_v27_apply]
  simp only [lidxO, ridxO, bidxO]
  rfl

end Cert.RefLinear

end
-- ==== Proof.Stages.lean ====
/-
  Stage by stage, the idealized kernel program's intermediate arrays are the reference's stages of the arguments.

  Each linear region computes, for row p of its input read as [rows, features] and feature q,
  the inner product of that row with column q of the transposed weight, plus the bias row's entry q. Its input is the
  [batch, position, feature] array read row by row (row p = b * 2048 + s), its weight the transpose of the argument
  (so column q of it is row q of the argument), its bias the argument as one row. Read back as [batch, position,
  feature], the result at (b, s, e) is the reference's projection at (b, s, e). The attention region's two outputs are
  the attention layer's weights and output of those projections, which the reference's stages are too.
-/
import proofs.«157808_j62268435858121_2_alg».proof.Proof.Boundaries
import proofs.«157808_j62268435858121_2_alg».proof.Proof.Linear0
import proofs.«157808_j62268435858121_2_alg».proof.Proof.Linear1
import proofs.«157808_j62268435858121_2_alg».proof.Proof.Linear3
import proofs.«157808_j62268435858121_2_alg».proof.Proof.Attn
import proofs.«157808_j62268435858121_2_alg».proof.Proof.RefAttn
import proofs.«157808_j62268435858121_2_alg».proof.Proof.RefLinear
import Idealize.ShloMosaic.Lib.Pipeline.Value
import Idealize.ShloMosaic.Lib.ValueIdx

set_option maxRecDepth 16384

noncomputable section

open scoped BigOperators

namespace Cert.KernelIdeal.Stages

open Idealize.ShloMosaic Idealize.ShloMosaic.TcCoe Idealize.SL.Sem Idealize.ShloMosaic.ValueIdx
open Cert.KernelIdeal Cert.KernelIdeal.Gen Cert.KernelIdeal.Bdry

/-! ## Layout operations at explicit coordinates -/

/-- Row `p = b * 2048 + s` of the [rows, features] reading is position (b, s). -/
theorem rows_apply (x : S4x2048x1024.Idx → EReal) (b : Fin 4) (s : Fin 2048) (k : Fin 1024) (p : Fin 8192)
    (hp : p.val = b.val * 2048 + s.val) :
    shapeCast S8192x1024 x shapeCasts_S4x2048x1024_S8192x1024 (ix2 p k) = x (ix3 b s k) :=
  shapeCast_apply x shapeCasts_S4x2048x1024_S8192x1024 (ix2 p k) (ix3 b s k) (by
    rewrite [Shape.rowMajor_val_three, Shape.rowMajor_val_two]
    show (b.val * 2048 + s.val) * 1024 + k.val = p.val * 1024 + k.val
    omega)

/-- And back: position (b, s) of the [batch, position, feature] reading is row `p = b * 2048 + s`. -/
theorem unrows_apply (y : S8192x1024.Idx → EReal) (b : Fin 4) (s : Fin 2048) (e : Fin 1024) (p : Fin 8192)
    (hp : p.val = b.val * 2048 + s.val) :
    shapeCast S4x2048x1024 y shapeCasts_S8192x1024_S4x2048x1024 (ix3 b s e) = y (ix2 p e) :=
  shapeCast_apply y shapeCasts_S8192x1024_S4x2048x1024 (ix3 b s e) (ix2 p e) (by
    rewrite [Shape.rowMajor_val_three, Shape.rowMajor_val_two]
    show p.val * 1024 + e.val = (b.val * 2048 + s.val) * 1024 + e.val
    omega)

/-- Entry (k, e) of the transposed weight, whatever its float format, is entry (e, k) of the weight. -/
theorem wT_apply (W : FVec Ideal S1024x1024 .f32) (k e : Fin 1024) :
    (truncf (F := Ideal) .bf16 (transpose S1024x1024 [1, 0] W transposes_S1024x1024_S1024x1024_1_0) bitsLt_bf16_f32
      : FVec Ideal S1024x1024 .bf16) (ix2 k e) = W (ix2 e k) :=
  transpose_apply [1, 0] W transposes_S1024x1024_S1024x1024_1_0 (ix2 k e) (ix2 e k) (fun b => match b with
    | ⟨0, _⟩ => rfl
    | ⟨1, _⟩ => rfl)

/-- The bias as one row. -/
theorem brow_apply (bb : S1024.Idx → EReal) (e : Fin 1024) :
    shapeCast S1x1024 bb shapeCasts_S1024_S1x1024 (ix2 (0 : Fin 1) e) = bb (ix1 e) :=
  shapeCast_apply bb shapeCasts_S1024_S1x1024 (ix2 (0 : Fin 1) e) (ix1 e) (by
    rewrite [Shape.rowMajor_val_one, Shape.rowMajor_val_two]
    show e.val = 0 * 1024 + e.val
    omega)

/-- The row of position (b, s). -/
def rowOf (b : Fin 4) (s : Fin 2048) : Fin 8192 := ⟨b.val * 2048 + s.val, by have := b.isLt; have := s.isLt; omega⟩

/-- A linear region's value on the prepared arrays: at row `b * 2048 + s` and feature `e`, the inner product of input
    row (b, s) with row `e` of the weight, plus entry `e` of the bias. -/
theorem lin_prepared (x : S4x2048x1024.Idx → EReal) (W : FVec Ideal S1024x1024 .f32) (bb : S1024.Idx → EReal)
    (b : Fin 4) (s : Fin 2048) (e : Fin 1024) :
    Lin0.lin (shapeCast S8192x1024 x shapeCasts_S4x2048x1024_S8192x1024)
        (truncf (F := Ideal) .bf16 (transpose S1024x1024 [1, 0] W transposes_S1024x1024_S1024x1024_1_0) bitsLt_bf16_f32)
        (shapeCast S1x1024 bb shapeCasts_S1024_S1x1024) (rowOf b s) e
      = (∑ k : Fin 1024, x (ix3 b s k) * W (ix2 e k)) + bb (ix1 e) := by
  unfold Lin0.lin
  simp only [rows_apply x b s _ (rowOf b s) rfl, brow_apply]
  refine congrArg (· + bb (ix1 e)) (Finset.sum_congr rfl fun k _ => ?_)
  exact congrArg (x (ix3 b s k) * ·) (wT_apply W k e)

variable (m : (ℓ : Loc nD τ sig) → Buf (Elt Ideal) ℓ) (ρ : Dev nD → PrngReg)

/-! ## The projected queries -/

theorem q_apply (c : Dev nD) (b : Fin 4) (s : Fin 2048) (e : Fin 1024) :
    W3 m ρ c (Proc.devRef .tc main_v5) (ix3 b s e)
      = Cert.ReferenceIdeal.Read.val_main_v3 (F := Ideal) (m ((c : Thread nD τ).loc main_arg0)) (m ((c : Thread nD τ).loc main_arg3)) (m ((c : Thread nD τ).loc main_arg4)) (ix3 b s e) := by
  rw [W3_v5, Cert.RefLinear.q_apply, unrows_apply _ b s e (rowOf b s) rfl, W2_v4, Lin0.out_apply_lin (V1 m ρ) c]
  show Lin0.lin (W1 m ρ c (Proc.devRef .tc main_v0)) (W1 m ρ c (Proc.devRef .tc main_v2)) (W1 m ρ c (Proc.devRef .tc main_v3))
      (rowOf b s) e = _
  rw [W1_v0, W1_v2, W1_v3]
  exact lin_prepared _ _ _ b s e

/-- As whole arrays, at the entry of the attention region. -/
theorem q_eq (c : Dev nD) : (W5 m ρ c (Proc.devRef .tc main_v5) : S4x2048x1024.Idx → EReal)
    = Cert.ReferenceIdeal.Read.val_main_v3 (F := Ideal) (m ((c : Thread nD τ).loc main_arg0)) (m ((c : Thread nD τ).loc main_arg3)) (m ((c : Thread nD τ).loc main_arg4)) := by
  funext i
  obtain ⟨b, s, e, rfl⟩ : ∃ (b : Fin 4) (s : Fin 2048) (e : Fin 1024), i = ix3 b s e := ⟨i 0, i 1, i 2, eq_ix3 i⟩
  rw [W5_v5, W4_v5]
  exact q_apply m ρ c b s e

/-! ## The projected keys, and the values -/

theorem k_apply (c : Dev nD) (b : Fin 4) (s : Fin 2048) (e : Fin 1024) :
    W5 m ρ c (Proc.devRef .tc main_v11) (ix3 b s e)
      = Cert.ReferenceIdeal.Read.val_main_v7 (F := Ideal) (m ((c : Thread nD τ).loc main_arg1)) (m ((c : Thread nD τ).loc main_arg5)) (m ((c : Thread nD τ).loc main_arg6)) (ix3 b s e) := by
  rw [W5_v11, Cert.RefLinear.k_apply, unrows_apply _ b s e (rowOf b s) rfl, W4_v10, Lin1.out_apply_lin (V3 m ρ) c]
  show Lin0.lin (W3 m ρ c (Proc.devRef .tc main_v6)) (W3 m ρ c (Proc.devRef .tc main_v8)) (W3 m ρ c (Proc.devRef .tc main_v9))
      (rowOf b s) e = _
  rw [W3_v6, W3_v8, W3_v9]
  exact lin_prepared _ _ _ b s e

theorem k_eq (c : Dev nD) : (W5 m ρ c (Proc.devRef .tc main_v11) : S4x2048x1024.Idx → EReal)
    = Cert.ReferenceIdeal.Read.val_main_v7 (F := Ideal) (m ((c : Thread nD τ).loc main_arg1)) (m ((c : Thread nD τ).loc main_arg5)) (m ((c : Thread nD τ).loc main_arg6)) := by
  funext i
  obtain ⟨b, s, e, rfl⟩ : ∃ (b : Fin 4) (s : Fin 2048) (e : Fin 1024), i = ix3 b s e := ⟨i 0, i 1, i 2, eq_ix3 i⟩
  exact k_apply m ρ c b s e

/-- The value input only changes float format, which changes nothing over the extended reals. -/
theorem v_eq (c : Dev nD) : (W5 m ρ c (Proc.devRef .tc main_v12) : S4x2048x1024.Idx → EReal) = (m ((c : Thread nD τ).loc main_arg2)) := by
  rw [W5_v12]
  rfl

/-! ## The attention weights and the attention output -/

theorem attn_apply (c : Dev nD) (b : Fin 4) (s t : Fin 2048) :
    W6 m ρ c (Proc.devRef .tc main_v13_1) (ix3 b s t)
      = Cert.ReferenceIdeal.Read.val_main_v22 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (ix3 b s t) := by
  rw [W6_v13_1, Attn.attn_apply (V5 m ρ) c b s t, Cert.RefAttn.attn_eq]
  show Cert.AttnSpec.attn (W5 m ρ c (Proc.devRef .tc main_v5)) (W5 m ρ c (Proc.devRef .tc main_v11)) b s t = _
  rw [q_eq, k_eq]

theorem attn_eq (c : Dev nD) : (W6 m ρ c (Proc.devRef .tc main_v13_1) : S4x2048x2048.Idx → EReal)
    = Cert.ReferenceIdeal.Read.val_main_v22 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  funext i
  obtain ⟨b, s, t, rfl⟩ : ∃ (b : Fin 4) (s t : Fin 2048), i = ix3 b s t := ⟨i 0, i 1, i 2, eq_ix3 i⟩
  exact attn_apply m ρ c b s t

theorem out_apply (c : Dev nD) (b : Fin 4) (s : Fin 2048) (e : Fin 1024) :
    W6 m ρ c (Proc.devRef .tc main_v13_0) (ix3 b s e)
      = Cert.ReferenceIdeal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b s e) := by
  rw [W6_v13_0, Attn.out_apply (V5 m ρ) c b s e, Cert.RefAttn.out_eq]
  show Cert.AttnSpec.outp (W5 m ρ c (Proc.devRef .tc main_v5)) (W5 m ρ c (Proc.devRef .tc main_v11))
      (W5 m ρ c (Proc.devRef .tc main_v12)) b s e = _
  rw [q_eq, k_eq, v_eq]

theorem out_eq (c : Dev nD) : (W6 m ρ c (Proc.devRef .tc main_v13_0) : S4x2048x1024.Idx → EReal)
    = Cert.ReferenceIdeal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨b, s, e, rfl⟩ : ∃ (b : Fin 4) (s : Fin 2048) (e : Fin 1024), i = ix3 b s e := ⟨i 0, i 1, i 2, eq_ix3 i⟩
  exact out_apply m ρ c b s e

/-! ## The re-laid attention output and the output projection

Both programs exchange the last two axes of the attention output and read the result again as
[batch, position, feature]: the same two operations on equal arrays. -/

theorem relaid_eq (c : Dev nD) : (W7 m ρ c (Proc.devRef .tc main_v16) : S8192x1024.Idx → EReal)
    = shapeCast S8192x1024 (Cert.ReferenceIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) shapeCasts_S4x2048x1024_S8192x1024 := by
  rw [W7_v16, out_eq]
  rfl

theorem final_apply (c : Dev nD) (b : Fin 4) (s : Fin 2048) (e : Fin 1024) :
    W9 m ρ c (Proc.devRef .tc main_v21) (ix3 b s e)
      = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 b s e) := by
  rw [W9_v21, Cert.RefLinear.o_apply, unrows_apply _ b s e (rowOf b s) rfl, W8_v20, Lin3.out_apply_lin (V7 m ρ) c]
  show Lin0.lin (W7 m ρ c (Proc.devRef .tc main_v16)) (W7 m ρ c (Proc.devRef .tc main_v18)) (W7 m ρ c (Proc.devRef .tc main_v19))
      (rowOf b s) e = _
  rw [relaid_eq, W7_v18, W7_v19]
  exact lin_prepared _ _ _ b s e

/-! ## The two results -/

/-- The first result: the output projection. -/
theorem result_final (c : Dev nD) : (W9 m ρ c (Proc.devRef .tc main_v21) : S4x2048x1024.Idx → EReal)
    = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨b, s, e, rfl⟩ : ∃ (b : Fin 4) (s : Fin 2048) (e : Fin 1024), i = ix3 b s e := ⟨i 0, i 1, i 2, eq_ix3 i⟩
  exact final_apply m ρ c b s e

/-- The second result: the attention weights, which nothing after the attention region writes. -/
theorem result_attn (c : Dev nD) : (W9 m ρ c (Proc.devRef .tc main_v13_1) : S4x2048x2048.Idx → EReal)
    = Cert.ReferenceIdeal.Read.val_main_v22 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [W9_v13_1, W8_v13_1, W7_v13_1]
  exact attn_eq m ρ c

end Cert.KernelIdeal.Stages

end
-- ==== Proof.lean ====
/-
  Equivalence, over the extended reals, of an attention layer computed by four tiled kernels and of its plain
  reference: q = query · Wqᵀ + bq and k = key · Wkᵀ + bk; scores q kᵀ scaled by 1/√1024; the row-wise softmax
  (shift by the row maximum, exponential, division by the row sum), which is the second result; its product with the
  values, with the last two axes exchanged and read again as [batch, position, feature]; and the output projection
  · Woᵀ + bo, the first result.

  The kernel program transposes each weight on the host and multiplies row tiles by it; the reference contracts the
  weight's second axis: the same sums. The kernel multiplies the scores by the word of 2⁻⁵; the reference divides them by
  the square root of 1024, which is 32, and dividing an extended real by 32 is multiplying it by 1/32. The kernel's
  row maximum starts from -∞; the reference's starts from -∞ and is joined with -∞ once more: both are the supremum
  of the row. Every change of float format is the identity on extended reals, a block product into a zero
  accumulator is a plain sum, and the tiles of each region cover its output arrays. No law used needs the inputs
  to be finite, so the precondition is never opened.

  Both programs run (the kernel program's run names every buffer's final contents; the reference's is its
  operations composed), their argument arrays end unchanged, and the two results are the same functions of the
  arguments, element by element.
-/
import proofs.«157808_j62268435858121_2_alg».proof.Defs
import proofs.«157808_j62268435858121_2_alg».proof.Proof.Gen.Kernel
import proofs.«157808_j62268435858121_2_alg».proof.Proof.Gen.Kernel.Skeleton
import proofs.«157808_j62268435858121_2_alg».proof.Proof.Gen.Kernel.Launch
import proofs.«157808_j62268435858121_2_alg».proof.Proof.Gen.Kernel.Points
import proofs.«157808_j62268435858121_2_alg».proof.Proof.Gen.Kernel.Frame
import proofs.«157808_j62268435858121_2_alg».proof.Proof.Gen.KernelIdeal
import proofs.«157808_j62268435858121_2_alg».proof.Proof.Gen.KernelIdeal.Skeleton
import proofs.«157808_j62268435858121_2_alg».proof.Proof.Gen.KernelIdeal.Launch
import proofs.«157808_j62268435858121_2_alg».proof.Proof.Gen.KernelIdeal.Points
import proofs.«157808_j62268435858121_2_alg».proof.Proof.Gen.KernelIdeal.Frame
import proofs.«157808_j62268435858121_2_alg».proof.Proof.Gen.ReferenceIdeal
import proofs.«157808_j62268435858121_2_alg».proof.Proof.Gen.Pre_finite_inputs
import proofs.«157808_j62268435858121_2_alg».proof.Proof.Gen.ReferenceIdeal.Run
import proofs.«157808_j62268435858121_2_alg».proof.Proof.Gen.ReferenceIdeal.Read
import proofs.«157808_j62268435858121_2_alg».proof.Proof.KernelRun
import proofs.«157808_j62268435858121_2_alg».proof.Proof.Stages
import Idealize.ShloMosaic.Adequacy
import Idealize.ShloMosaic.Init

set_option maxRecDepth 16384

noncomputable section

namespace Cert.Proof

open Idealize.ShloMosaic Idealize.SL.Sem

/-- The word-level kernel program runs and leaves its arguments. -/
theorem frame_kernel [Cert.Kernel.Facts] [Cert.Pre_finite_inputs.Facts] : Cert.frame_Kernel :=
  fun m ρ _ => Cert.Kernel.Gen.frame m ρ

/-- So does its reading over the extended reals. -/
theorem frame_kernelIdeal [Cert.KernelIdeal.Facts] [Cert.Pre_finite_inputs.Facts] : Cert.frame_KernelIdeal :=
  fun m ρ _ => Cert.KernelIdeal.Gen.frame m ρ

/-- The reference runs and leaves its arguments: its run, with the two results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- Both programs end with the output projection and the attention weights of the arguments, as the reference's own
    stages spell them. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v22 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · -- the kernel program: every buffer ends at the last boundary's contents; read the two results and the arguments
    refine (θ_run Cert.KernelIdeal.defs _ _).mono (fun r h c => ?_) (Cert.KernelIdeal.Run.run_all m ρ)
    exact ⟨(h c _ (Cert.KernelIdeal.Gen.mem_uc Cert.KernelIdeal.main_v21 (by decide))).trans (Cert.KernelIdeal.Stages.result_final m ρ c),
      (h c _ (Cert.KernelIdeal.Gen.mem_uc Cert.KernelIdeal.main_v13_1 (by decide))).trans (Cert.KernelIdeal.Stages.result_attn m ρ c),
      (h c _ (Cert.KernelIdeal.Gen.mem_uc Cert.KernelIdeal.main_arg0 (by decide))).trans (Cert.KernelIdeal.Gen.W9_main_arg0 m ρ c),
      (h c _ (Cert.KernelIdeal.Gen.mem_uc Cert.KernelIdeal.main_arg1 (by decide))).trans (Cert.KernelIdeal.Gen.W9_main_arg1 m ρ c),
      (h c _ (Cert.KernelIdeal.Gen.mem_uc Cert.KernelIdeal.main_arg2 (by decide))).trans (Cert.KernelIdeal.Gen.W9_main_arg2 m ρ c),
      (h c _ (Cert.KernelIdeal.Gen.mem_uc Cert.KernelIdeal.main_arg3 (by decide))).trans (Cert.KernelIdeal.Gen.W9_main_arg3 m ρ c),
      (h c _ (Cert.KernelIdeal.Gen.mem_uc Cert.KernelIdeal.main_arg4 (by decide))).trans (Cert.KernelIdeal.Gen.W9_main_arg4 m ρ c),
      (h c _ (Cert.KernelIdeal.Gen.mem_uc Cert.KernelIdeal.main_arg5 (by decide))).trans (Cert.KernelIdeal.Gen.W9_main_arg5 m ρ c),
      (h c _ (Cert.KernelIdeal.Gen.mem_uc Cert.KernelIdeal.main_arg6 (by decide))).trans (Cert.KernelIdeal.Gen.W9_main_arg6 m ρ c),
      (h c _ (Cert.KernelIdeal.Gen.mem_uc Cert.KernelIdeal.main_arg7 (by decide))).trans (Cert.KernelIdeal.Gen.W9_main_arg7 m ρ c),
      (h c _ (Cert.KernelIdeal.Gen.mem_uc Cert.KernelIdeal.main_arg8 (by decide))).trans (Cert.KernelIdeal.Gen.W9_main_arg8 m ρ c)⟩
  · -- the reference: its results are its last stages of its own arguments, which agree with the kernel program's
    refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v29_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    · rw [Cert.ReferenceIdeal.Read.val_main_v22_eq, (hagree c).1, (hagree c).2.1, (hagree c).2.2.2.1, (hagree c).2.2.2.2.1, (hagree c).2.2.2.2.2.1, (hagree c).2.2.2.2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
